-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_sqrt_d" .f32 0x3CB504F3#32 ((262144 / 11863283 : ℝ) : EReal)
  ∧ IdealRules.named_const.Statement Cert.KernelIdeal.κ "neg_fill" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S19x19x64 : Shape := ⟨3, ![19, 19, 64]⟩
abbrev S64x2048 : Shape := ⟨2, ![64, 2048]⟩
abbrev S2048 : Shape := ⟨1, ![2048]⟩
abbrev S2048x2048 : Shape := ⟨2, ![2048, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S19x19x64 : S_.BroadcastsInDim S19x19x64 (![] : Fin 0 → Fin S19x19x64.rank)
  reducesTo_S19x19x64_S_d0_1_2 : S19x19x64.ReducesTo [0, 1, 2] S_
  bcast_S_S64x2048 : S_.BroadcastsInDim S64x2048 (![] : Fin 0 → Fin S64x2048.rank)
  reducesTo_S64x2048_S_d0_1 : S64x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S2048x2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S1024x2048 .f32) (main_arg1 : FVec F S19x19x64 .f32) (main_arg2 : FVec F S64x2048 .f32) (main_arg3 : FVec F S2048 .f32) (main_arg4 : FVec F S2048x2048 .f32) (main_arg5 : FVec F S2048 .f32) (main_arg6 : FVec F S2048x2048 .f32) (main_arg7 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S19x19x64 .f32 := Host.absf main_arg1
  let main_cst_0 : FVec F S_ .f32 := constant S_ .f32 0x7F800000#32
  let main_v5 : FVec F S19x19x64 .f32 := broadcastInDim S19x19x64 ![] bcast_S_S19x19x64 main_cst_0
  let main_v6 : IVec S19x19x64 1 := cmpf .olt main_v4 main_v5
  let main_c_1 : IVec S_ 1 := constantI S_ 1 1#1
  let main_v7 : IVec S_ 1 := (fun x v => Host.reduce IntOp.andi x v reducesTo_S19x19x64_S_d0_1_2 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S1024x2048 : Shape := ⟨2, ![1024, 2048]⟩
abbrev S19x19x64 : Shape := ⟨3, ![19, 19, 64]⟩
abbrev S64x2048 : Shape := ⟨2, ![64, 2048]⟩
abbrev S2048 : Shape := ⟨1, ![2048]⟩
abbrev S2048x2048 : Shape := ⟨2, ![2048, 2048]⟩
abbrev S361x64 : Shape := ⟨2, ![361, 64]⟩
abbrev S_ : Shape := ⟨0, ![]⟩
abbrev S384x64 : Shape := ⟨2, ![384, 64]⟩
abbrev S1x2048 : Shape := ⟨2, ![1, 2048]⟩
abbrev S1024x384 : Shape := ⟨2, ![1024, 384]⟩
abbrev S512x512 : Shape := ⟨2, ![512, 512]⟩
abbrev S512x2048 : Shape := ⟨2, ![512, 2048]⟩
abbrev S512x384 : Shape := ⟨2, ![512, 384]⟩
abbrev S512 : Shape := ⟨1, ![512]⟩
abbrev S512x1 : Shape := ⟨2, ![512, 1]⟩
abbrev S384x2048 : Shape := ⟨2, ![384, 2048]⟩
abbrev S1024x361 : Shape := ⟨2, ![1024, 361]⟩
abbrev S1024x19x19 : Shape := ⟨3, ![1024, 19, 19]⟩

abbrev nBuf : Space → Nat
  | .hbm => 18
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S19x19x64, .f32⟩
  | .hbm, ⟨2, _⟩ => ⟨S64x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S361x64, .f32⟩
  | .hbm, ⟨9, _⟩ => ⟨S_, .i32⟩
  | .hbm, ⟨10, _⟩ => ⟨S_, .f32⟩
  | .hbm, ⟨11, _⟩ => ⟨S384x64, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1024x384, .f32⟩
  | .hbm, ⟨16, _⟩ => ⟨S1024x361, .f32⟩
  | .hbm, ⟨17, _⟩ => ⟨S1024x19x19, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S384x64, .f32⟩
  | .local _ .vmem, ⟨9, _⟩ => ⟨S64x2048, .f32⟩
  | .local _ .vmem, ⟨10, _⟩ => ⟨S1x2048, .f32⟩
  | .local _ .vmem, ⟨11, _⟩ => ⟨S512x384, .f32⟩
  | .local _ .vmem, ⟨12, _⟩ => ⟨S512x384, .f32⟩
  | .local _ .vmem, ⟨13, _⟩ => ⟨S512x2048, .f32⟩
  | .local _ .vmem, ⟨14, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S19x19x64_S361x64 : S19x19x64.ShapeCasts S361x64
  pads_S361x64_S384x64_0230_000 : S361x64.Pads (![0, 0] : Fin 2 → Nat) ![23, 0] ![0, 0] S384x64
  h_S_ : 0 < S_.numel
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S64x2048_S64x2048_0_0 : ∀ a, (![0, 0] : Fin 2 → Nat) a + S64x2048.size a ≤ S64x2048.size a
  h_S64x2048 : 0 < S64x2048.numel
  broadcasts_S1x2048_S384x2048 : S1x2048.Broadcasts S384x2048
  broadcasts_S512x1_S512x384 : S512x1.Broadcasts S512x384
  iota_S512x384_d1_w32 : S512x384.Iotas .tc 32 [1]
  reduces_S512x384_S512 : S512x384.Reduces [1] S512
  inb_S512x384_S512x384_0_0 : ∀ a, (![0, 0] : Fin 2 → Nat) a + S512x384.size a ≤ S512x384.size a
  h_S512x384 : 0 < S512x384.numel
  slices_S1024x384_S1024x361_0_0 : S1024x384.Slices ![0, 0] S1024x361
  shapeCasts_S1024x361_S1024x19x19 : S1024x361.ShapeCasts S1024x19x19
  dot_S512x512_S512x2048_S512x2048_1_0_0_1_n_n_wf : DotDims.WF S512x512 S512x2048 S512x2048 [1] [0] [0] [1] [] []
  dot_S384x64_S64x2048_S384x2048_1_0_0_1_n_n_wf : DotDims.WF S384x64 S64x2048 S384x2048 [1] [0] [0] [1] [] []
  dot_S512x2048_S384x2048_S512x384_1_1_0_0_n_n_wf : DotDims.WF S512x2048 S384x2048 S512x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x2048.size a
  hwx0_0 : ∀ i : grid0.Coords, EltTy.bits .f32 = 32 ∨ (Rect.block (s := S1024x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x64.size a ≤ S384x64.size a
  hwx0_5 : ∀ i : grid0.Coords, EltTy.bits .f32 = 32 ∨ (Rect.block (s := S384x64) S384x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x2048.size a
  hwx0_6 : ∀ i : grid0.Coords, EltTy.bits .f32 = 32 ∨ (Rect.block (s := S64x2048) S64x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x384.size a ≤ S1024x384.size a
  hwx0_8 : ∀ i : grid0.Coords, EltTy.bits .f32 = 32 ∨ (Rect.block (s := S1024x384) S512x384.size (cc0_transform_8 i) (hinb0_8 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S384x64_S64x2048_S384x2048_1_0_0_1_n_n : DotDims S384x64 S64x2048 S384x2048 where
  lhsContracting := [1]
  rhsContracting := [0]
  lhsNonContracting := [0]
  rhsNonContracting := [1]
  lhsBatch := []
  rhsBatch := []
  wf := dot_S384x64_S64x2048_S384x2048_1_0_0_1_n_n_wf
def dot_S512x2048_S384x2048_S512x384_1_1_0_0_n_n : DotDims S512x2048 S384x2048 S512x384 where
  lhsContracting := [1]
  rhsContracting := [1]
  lhsNonContracting := [0]
  rhsNonContracting := [0]
  lhsBatch := []
  rhsBatch := []
  wf := dot_S512x2048_S384x2048_S512x384_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S384x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S64x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1024x2048 : Shape := ⟨2, ![1024, 2048]⟩
abbrev S19x19x64 : Shape := ⟨3, ![19, 19, 64]⟩
abbrev S64x2048 : Shape := ⟨2, ![64, 2048]⟩
abbrev S2048 : Shape := ⟨1, ![2048]⟩
abbrev S2048x2048 : Shape := ⟨2, ![2048, 2048]⟩
abbrev S361x64 : Shape := ⟨2, ![361, 64]⟩
abbrev S361x2048 : Shape := ⟨2, ![361, 2048]⟩
abbrev S1x2048 : Shape := ⟨2, ![1, 2048]⟩
abbrev S_ : Shape := ⟨0, ![]⟩
abbrev S1024 : Shape := ⟨1, ![1024]⟩
abbrev S1024x1 : Shape := ⟨2, ![1024, 1]⟩
abbrev S2048x361 : Shape := ⟨2, ![2048, 361]⟩
abbrev S1024x361 : Shape := ⟨2, ![1024, 361]⟩
abbrev S1024x19x19 : Shape := ⟨3, ![1024, 19, 19]⟩

abbrev nBuf : Space → Nat
  | .hbm => 48
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S19x19x64, .f32⟩
  | .hbm, ⟨2, _⟩ => ⟨S64x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S361x64, .f32⟩
  | .hbm, ⟨9, _⟩ => ⟨S361x2048, .f32⟩
  | .hbm, ⟨10, _⟩ => ⟨S1x2048, .f32⟩
  | .hbm, ⟨11, _⟩ => ⟨S361x2048, .f32⟩
  | .hbm, ⟨12, _⟩ => ⟨S361x2048, .f32⟩
  | .hbm, ⟨13, _⟩ => ⟨S1024x2048, .f32⟩
  | .hbm, ⟨14, _⟩ => ⟨S1x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S2048x361, .f32⟩
  | .hbm, ⟨26, _⟩ => ⟨S1024x361, .f32⟩
  | .hbm, ⟨27, _⟩ => ⟨S1024x361, .f32⟩
  | .hbm, ⟨28, _⟩ => ⟨S1024x361, .f32⟩
  | .hbm, ⟨29, _⟩ => ⟨S_, .f32⟩
  | .hbm, ⟨30, _⟩ => ⟨S1024x361, .f32⟩
  | .hbm, ⟨31, _⟩ => ⟨S1024x361, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x361, .f32⟩
  | .hbm, ⟨39, _⟩ => ⟨S1024x361, .f32⟩
  | .hbm, ⟨40, _⟩ => ⟨S1024x361, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x1, .f32⟩
  | .hbm, ⟨45, _⟩ => ⟨S1024x361, .f32⟩
  | .hbm, ⟨46, _⟩ => ⟨S1024x361, .f32⟩
  | .hbm, ⟨47, _⟩ => ⟨S1024x19x19, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_call0_cst_0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_cst_1 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  shapeCasts_S19x19x64_S361x64 : S19x19x64.ShapeCasts S361x64
  bcast_S2048_S1x2048_1 : S2048.BroadcastsInDim S1x2048 (![1] : Fin 1 → Fin S1x2048.rank)
  bcast_S1x2048_S361x2048_0_1 : S1x2048.BroadcastsInDim S361x2048 (![0, 1] : Fin 2 → Fin S361x2048.rank)
  bcast_S1x2048_S1024x2048_0_1 : S1x2048.BroadcastsInDim S1024x2048 (![0, 1] : Fin 2 → Fin S1024x2048.rank)
  reducesTo_S1024x2048_S1024_d1 : S1024x2048.ReducesTo [1] S1024
  h_S_ : 0 < S_.numel
  bcast_S1024_S1024x1_0 : S1024.BroadcastsInDim S1024x1 (![0] : Fin 1 → Fin S1024x1.rank)
  transposes_S361x2048_S2048x361_1_0 : S361x2048.Transposes [1, 0] S2048x361
  bcast_S1024x1_S1024x361_0_1 : S1024x1.BroadcastsInDim S1024x361 (![0, 1] : Fin 2 → Fin S1024x361.rank)
  bcast_S_S1024x361 : S_.BroadcastsInDim S1024x361 (![] : Fin 0 → Fin S1024x361.rank)
  reducesTo_S1024x361_S1024_d1 : S1024x361.ReducesTo [1] S1024
  bcast_S_S1024 : S_.BroadcastsInDim S1024 (![] : Fin 0 → Fin S1024.rank)
  shapeCasts_S1024x361_S1024x19x19 : S1024x361.ShapeCasts S1024x19x19
  dot_S361x64_S64x2048_S361x2048_1_0_0_1_n_n_wf : DotDims.WF S361x64 S64x2048 S361x2048 [1] [0] [0] [1] [] []
  dot_S1024x2048_S2048x2048_S1024x2048_1_0_0_1_n_n_wf : DotDims.WF S1024x2048 S2048x2048 S1024x2048 [1] [0] [0] [1] [] []
  dot_S1024x2048_S2048x361_S1024x361_1_0_0_1_n_n_wf : DotDims.WF S1024x2048 S2048x361 S1024x361 [1] [0] [0] [1] [] []

variable [Facts₀]

def dot_S361x64_S64x2048_S361x2048_1_0_0_1_n_n : DotDims S361x64 S64x2048 S361x2048 where
  lhsContracting := [1]
  rhsContracting := [0]
  lhsNonContracting := [0]
  rhsNonContracting := [1]
  lhsBatch := []
  rhsBatch := []
  wf := dot_S361x64_S64x2048_S361x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x361_S1024x361_1_0_0_1_n_n : DotDims S1024x2048 S2048x361 S1024x361 where
  lhsContracting := [1]
  rhsContracting := [0]
  lhsNonContracting := [0]
  rhsNonContracting := [1]
  lhsBatch := []
  rhsBatch := []
  wf := dot_S1024x2048_S2048x361_S1024x361_1_0_0_1_n_n_wf

class Facts : Prop extends Facts₀ where

variable [Facts]
-- ==== Proof.Spec.lean ====
/-
  The function both programs compute, stated once over plain index types.

  For a batch row b and a board position p (361 of them):
    kx = x · W_kx + b_kx,   q = x · W_q + b_q   (rows of length 2048),   kp = pf · W_kp + b_kp   (one row per position),
    score b p = ⟨kx b, q b⟩ + ⟨q b, kp p⟩,
  and the result is the log-softmax over the 361 positions of score b · / D, with D the reference's divisor.
  Every sum is a finite sum of extended reals, so its order and grouping do not matter; the row maximum is the fold of
  max from −∞; exp sends −∞ to 0.
-/
import Idealize.ShloMosaic.PureOps.Ideal
import Idealize.ShloMosaic.Lib.ValueIdx

noncomputable section

open Idealize.ShloMosaic Idealize.ShloMosaic.ValueIdx

namespace Cert.Bridge

/-- One element of a linear layer: the row b of x against the column d of W, plus the bias at d. -/
def lin {B K D : ℕ} (x : Fin B → Fin K → EReal) (W : Fin K → Fin D → EReal) (bias : Fin D → EReal)
    (b : Fin B) (d : Fin D) : EReal :=
  (∑ k : Fin K, x b k * W k d) + bias d

/-- The score of batch row b at position p: ⟨kx b, q b⟩ + ⟨q b, kp p⟩. -/
def score {B D P : ℕ} (kx q : Fin B → Fin D → EReal) (kp : Fin P → Fin D → EReal) (b : Fin B) (p : Fin P) : EReal :=
  (∑ d : Fin D, kx b d * q b d) + ∑ d : Fin D, q b d * kp p d

/-- The maximum of a row, folded from −∞. -/
def rowMax {n : ℕ} (row : Fin n → EReal) : EReal :=
  (Finset.univ : Finset (Fin n)).fold max ⊥ row

/-- The log-softmax of a row at j: (row j − M) − log ∑ exp (row j' − M), M the row's maximum. -/
def logSoftmax {n : ℕ} (row : Fin n → EReal) (j : Fin n) : EReal :=
  (row j - rowMax row) - Ideal.log (∑ j' : Fin n, Ideal.exp (row j' - rowMax row))

/-- The reference's divisor: the single-precision word nearest to √2048. -/
abbrev divisor : EReal := Ideal.ofBits .f32 0x423504F3#32

/-- The result at batch row b and position p, as a function of the eight arguments. -/
def result (x : Fin 1024 → Fin 2048 → EReal) (pf : Fin 361 → Fin 64 → EReal)
    (Wkp : Fin 64 → Fin 2048 → EReal) (bkp : Fin 2048 → EReal)
    (Wkx : Fin 2048 → Fin 2048 → EReal) (bkx : Fin 2048 → EReal)
    (Wq : Fin 2048 → Fin 2048 → EReal) (bq : Fin 2048 → EReal) (b : Fin 1024) (p : Fin 361) : EReal :=
  logSoftmax (fun p' => Ideal.div (score (lin x Wkx bkx) (lin x Wq bq) (lin pf Wkp bkp) b p') divisor) p

/-- The same over the eight argument arrays as the programs hold them: x[1024,2048], p[19,19,64], W_kp[64,2048], b_kp[2048],
    W_kx[2048,2048], b_kx[2048], W_q[2048,2048], b_q[2048]. Board position p of the flattened board is (p / 19, p % 19). -/
def resultOf (x : (⟨2, ![1024, 2048]⟩ : Shape).Idx → EReal) (p3 : (⟨3, ![19, 19, 64]⟩ : Shape).Idx → EReal)
    (Wkp : (⟨2, ![64, 2048]⟩ : Shape).Idx → EReal) (bkp : (⟨1, ![2048]⟩ : Shape).Idx → EReal)
    (Wkx : (⟨2, ![2048, 2048]⟩ : Shape).Idx → EReal) (bkx : (⟨1, ![2048]⟩ : Shape).Idx → EReal)
    (Wq : (⟨2, ![2048, 2048]⟩ : Shape).Idx → EReal) (bq : (⟨1, ![2048]⟩ : Shape).Idx → EReal)
    (b : Fin 1024) (p : Fin 361) : EReal :=
  result (fun b k => x (ix2 b k))
    (fun p e => p3 (ix3 (⟨p.val / 19, by have := p.isLt; omega⟩ : Fin 19) (⟨p.val % 19, by omega⟩ : Fin 19) e))
    (fun e d => Wkp (ix2 e d)) (fun d => bkp (ix1 d))
    (fun k d => Wkx (ix2 k d)) (fun d => bkx (ix1 d))
    (fun k d => Wq (ix2 k d)) (fun d => bq (ix1 d)) b p

end Cert.Bridge

end
-- ==== Proof.RefValue.lean ====
/-
  The reference program's [1024, 361] log-softmax stage, read index by index at the extended reals, is the
  specification function.

  The stage is a composition of forty array operations. Each is read at one index: a product of matrices is the sum over
  the contracted coordinate of the products of the entries, a sum along an axis is the sum over that axis's coordinates
  starting from zero, a broadcast reads its operand at the kept coordinates, the reshape of the 19 × 19 × 64 board to
  361 × 64 sends position p and feature e to (p / 19, p % 19, e), and the maximum along a row is the fold of max from −∞
  over the row. Composing these readings from the arguments upward gives, one after the other, the three linear layers,
  the two inner products of the score, the quotient by the divisor, the row maximum, and the log-softmax.
-/
import proofs.«104132_j7430293422107_2_alg».proof.Proof.RefReadP
import proofs.«104132_j7430293422107_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx Cert.Bridge

variable (x0 : (⟨S1024x2048, .f32⟩ : BufTy).Contents (Elt Ideal)) (x1 : (⟨S19x19x64, .f32⟩ : BufTy).Contents (Elt Ideal))
  (x2 : (⟨S64x2048, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 : (⟨S2048x2048, .f32⟩ : BufTy).Contents (Elt Ideal)) (x7 : (⟨S2048, .f32⟩ : BufTy).Contents (Elt Ideal))

/-! ### The arguments as functions of coordinates -/

/-- x as a function of (row, column) -/
abbrev X : Fin 1024 → Fin 2048 → EReal := fun b k => x0 (ix2 b k)
/-- the board flattened: position p is (p / 19, p % 19) -/
abbrev PF : Fin 361 → Fin 64 → EReal :=
  fun p e => x1 (ix3 (⟨p.val / 19, by have := p.isLt; omega⟩ : Fin 19) (⟨p.val % 19, by omega⟩ : Fin 19) e)
abbrev WKP : Fin 64 → Fin 2048 → EReal := fun e d => x2 (ix2 e d)
abbrev BKP : Fin 2048 → EReal := fun d => x3 (ix1 d)
abbrev WKX : Fin 2048 → Fin 2048 → EReal := fun k d => x4 (ix2 k d)
abbrev BKX : Fin 2048 → EReal := fun d => x5 (ix1 d)
abbrev WQ : Fin 2048 → Fin 2048 → EReal := fun k d => x6 (ix2 k d)
abbrev BQ : Fin 2048 → EReal := fun d => x7 (ix1 d)

/-! ### The three linear layers -/

/-- kx = x · W_kx + b_kx at (b, d). -/
theorem kx_apply (i : S1024x2048.Idx) :
    val_main_v8 (F := Ideal) x0 x4 x5 i = lin (X x0) (WKX x4) (BKX x5) (i 0) (i 1) := by
  rw [val_main_v8_apply, val_main_v5_apply, val_main_v7_apply, val_main_v6_apply]
  have el : ∀ k : Fin 2048, lidx_main_v5 i k = ix2 (i 0 : Fin 1024) k := fun k =>
    funext fun a => Fin.ext (by match a with | ⟨0, _⟩ => rfl | ⟨1, _⟩ => rfl)
  have er : ∀ k : Fin 2048, ridx_main_v5 i k = ix2 k (i 1 : Fin 2048) := fun k =>
    funext fun a => Fin.ext (by match a with | ⟨0, _⟩ => rfl | ⟨1, _⟩ => rfl)
  have eb : idx_main_v6 (idx_main_v7 i) = ix1 (i 1 : Fin 2048) :=
    funext fun a => Fin.ext (by match a with | ⟨0, _⟩ => rfl)
  simp only [el, er, eb, Ideal.addf_def]
  rfl

/-- q = x · W_q + b_q at (b, d). -/
theorem q_apply (i : S1024x2048.Idx) :
    val_main_v12 (F := Ideal) x0 x6 x7 i = lin (X x0) (WQ x6) (BQ x7) (i 0) (i 1) := by
  rw [val_main_v12_apply, val_main_v9_apply, val_main_v11_apply, val_main_v10_apply]
  have el : ∀ k : Fin 2048, lidx_main_v9 i k = ix2 (i 0 : Fin 1024) k := fun k =>
    funext fun a => Fin.ext (by match a with | ⟨0, _⟩ => rfl | ⟨1, _⟩ => rfl)
  have er : ∀ k : Fin 2048, ridx_main_v9 i k = ix2 k (i 1 : Fin 2048) := fun k =>
    funext fun a => Fin.ext (by match a with | ⟨0, _⟩ => rfl | ⟨1, _⟩ => rfl)
  have eb : idx_main_v10 (idx_main_v11 i) = ix1 (i 1 : Fin 2048) :=
    funext fun a => Fin.ext (by match a with | ⟨0, _⟩ => rfl)
  simp only [el, er, eb, Ideal.addf_def]
  rfl

/-- kp = pf · W_kp + b_kp at (p, d): the flattened board's entry (p, e) is the board's entry (p / 19, p % 19, e). -/
theorem kp_apply (i : S361x2048.Idx) :
    val_main_v4 (F := Ideal) x1 x2 x3 i = lin (PF x1) (WKP x2) (BKP x3) (i 0) (i 1) := by
  rw [val_main_v4_apply, val_main_v1_apply, val_main_v3_apply, val_main_v2_apply]
  have el : ∀ k : Fin 64, idx_main_v0 (lidx_main_v1 i k)
      = ix3 (⟨(i 0).val / 19, by have h0 : (i 0).val < 361 := (i 0).isLt; omega⟩ : Fin 19) (⟨(i 0).val % 19, by omega⟩ : Fin 19) k := fun k =>
    funext fun a => Fin.ext (by
      have h0 : (i 0).val < 361 := (i 0).isLt
      have hk : k.val < 64 := k.isLt
      match a with
      | ⟨0, _⟩ => show ((i 0).val * 64 + k.val) / 1216 = (i 0).val / 19; omega
      | ⟨1, _⟩ => show ((i 0).val * 64 + k.val) / 64 % 19 = (i 0).val % 19; omega
      | ⟨2, _⟩ => show ((i 0).val * 64 + k.val) % 64 = k.val; omega)
  have er : ∀ k : Fin 64, ridx_main_v1 i k = ix2 k (i 1 : Fin 2048) := fun k =>
    funext fun a => Fin.ext (by match a with | ⟨0, _⟩ => rfl | ⟨1, _⟩ => rfl)
  have eb : idx_main_v2 (idx_main_v3 i) = ix1 (i 1 : Fin 2048) :=
    funext fun a => Fin.ext (by match a with | ⟨0, _⟩ => rfl)
  simp only [val_main_v0_apply, el, er, eb, Ideal.addf_def]
  rfl

/-! ### The score -/

/-- The diagonal term ⟨kx b, q b⟩: the row sum of the product kx * q, from the zero it starts at. -/
theorem diag_apply (i : S1024.Idx) :
    val_main_v14 (F := Ideal) x0 x4 x5 x6 x7 i
      = ∑ d : Fin 2048, lin (X x0) (WKX x4) (BKX x5) (i 0) d * lin (X x0) (WQ x6) (BQ x7) (i 0) d := by
  rw [val_main_v14_apply, val_main_cst_apply]
  simp only [val_main_v13_apply, kx_apply, q_apply, Ideal.mulf_def, Ideal.ofBits_def, Ideal.ofBits_zero_f32, zero_add]
  rfl

/-- The cross term ⟨q b, kp p⟩: the product of q with the transpose of kp. -/
theorem cross_apply (i : S1024x361.Idx) :
    val_main_v17 (F := Ideal) x0 x1 x2 x3 x6 x7 i
      = ∑ d : Fin 2048, lin (X x0) (WQ x6) (BQ x7) (i 0) d * lin (PF x1) (WKP x2) (BKP x3) (i 1) d := by
  rw [val_main_v17_apply]
  simp only [val_main_v16_apply, q_apply, kp_apply]
  rfl

/-- dots = (⟨kx b, q b⟩ + ⟨q b, kp p⟩) / D at (b, p). -/
theorem dots_apply (i : S1024x361.Idx) :
    val_main_v21 (F := Ideal) x0 x1 x2 x3 x4 x5 x6 x7 i
      = Ideal.div (score (lin (X x0) (WKX x4) (BKX x5)) (lin (X x0) (WQ x6) (BQ x7)) (lin (PF x1) (WKP x2) (BKP x3)) (i 0) (i 1))
          divisor := by
  rw [val_main_v21_apply, val_main_v19_apply, val_main_v18_apply, val_main_v15_apply, val_main_v20_apply,
    val_main_cst_0_apply, diag_apply, cross_apply]
  simp only [Ideal.hostDivf_def, Ideal.addf_def, Ideal.ofBits_def]
  rfl

/-! ### The log-softmax -/

/-- The row b of dots as a function of the position. -/
abbrev dotsRow (b : Fin 1024) : Fin 361 → EReal := fun p =>
  Ideal.div (score (lin (X x0) (WKX x4) (BKX x5)) (lin (X x0) (WQ x6) (BQ x7)) (lin (PF x1) (WKP x2) (BKP x3)) b p) divisor

/-- The word 0xFF800000 is −∞. -/
theorem ofBits_neg_inf : Ideal.ofBits .f32 0xFF800000#32 = (⊥ : EReal) := by
  simp [Ideal.ofBits, Ideal.ieee]

/-- The row maximum: the reduction by maximum along the row, from −∞, is the fold of max over the row's 361 positions. -/
theorem rowMax0_apply (i : S1024.Idx) :
    val_main_call0_v0 (F := Ideal) x0 x1 x2 x3 x4 x5 x6 x7 i = rowMax (dotsRow x0 x1 x2 x3 x4 x5 x6 x7 (i 0)) := by
  unfold val_main_call0_v0
  rw [Host.reduce_eq_fold_single FloatOps.maximumf _ _ reducesTo_S1024x361_S1024_d1
    (by decide : S1024x361.Reduces [1] S1024) h_S_ i, val_main_call0_cst_apply]
  have e : (val_main_v21 (F := Ideal) x0 x1 x2 x3 x4 x5 x6 x7) ∘ (by decide : S1024x361.Reduces [1] S1024).lift i
      = dotsRow x0 x1 x2 x3 x4 x5 x6 x7 (i 0) := by
    funext k
    show val_main_v21 (F := Ideal) x0 x1 x2 x3 x4 x5 x6 x7 _ = _
    rw [dots_apply]
    rfl
  rw [e, Ideal.ofBits_def, ofBits_neg_inf]
  rfl

/-- The maximum of −∞ with the row maximum is the row maximum. -/
theorem rowMax_apply (i : S1024.Idx) :
    val_main_call0_v2 (F := Ideal) x0 x1 x2 x3 x4 x5 x6 x7 i = rowMax (dotsRow x0 x1 x2 x3 x4 x5 x6 x7 (i 0)) := by
  rw [val_main_call0_v2_apply, val_main_call0_v1_apply, val_main_call0_cst_0_apply, rowMax0_apply,
    Ideal.maximumf_def, Ideal.ofBits_def, ofBits_neg_inf]
  exact max_eq_right bot_le

/-- dots − M at (b, p), M the maximum of row b. -/
theorem shifted_apply (i : S1024x361.Idx) :
    val_main_call0_v5 (F := Ideal) x0 x1 x2 x3 x4 x5 x6 x7 i
      = dotsRow x0 x1 x2 x3 x4 x5 x6 x7 (i 0) (i 1) - rowMax (dotsRow x0 x1 x2 x3 x4 x5 x6 x7 (i 0)) := by
  rw [val_main_call0_v5_apply, val_main_call0_v4_apply, val_main_call0_v3_apply, rowMax_apply, dots_apply, Ideal.subf_def]
  rfl

/-- The sum over the row of exp (dots − M), from the zero it starts at. -/
theorem sumExp_apply (i : S1024.Idx) :
    val_main_call0_v7 (F := Ideal) x0 x1 x2 x3 x4 x5 x6 x7 i
      = ∑ p : Fin 361, Ideal.exp (dotsRow x0 x1 x2 x3 x4 x5 x6 x7 (i 0) p - rowMax (dotsRow x0 x1 x2 x3 x4 x5 x6 x7 (i 0))) := by
  rw [val_main_call0_v7_apply, val_main_call0_cst_1_apply]
  simp only [val_main_call0_v6_apply, shifted_apply, Ideal.hostUnary_exp_def, Ideal.ofBits_def, Ideal.ofBits_zero_f32, zero_add]
  rfl

/-- The stage at an index is the log-softmax of the row of dots. -/
theorem stage_apply (i : S1024x361.Idx) :
    val_main_v22 (F := Ideal) x0 x1 x2 x3 x4 x5 x6 x7 i = logSoftmax (dotsRow x0 x1 x2 x3 x4 x5 x6 x7 (i 0)) (i 1) := by
  rw [val_main_v22_apply, val_main_call0_v10_apply, val_main_call0_v9_apply, val_main_call0_v8_apply, shifted_apply,
    sumExp_apply, Ideal.subf_def, Ideal.hostUnary_log_def]
  rfl

/-- The reference's [1024, 361] stage is the specification function of the eight arguments. -/
theorem stage_eq :
    val_main_v22 (F := Ideal) x0 x1 x2 x3 x4 x5 x6 x7 = fun i => resultOf x0 x1 x2 x3 x4 x5 x6 x7 (i 0) (i 1) := by
  funext i
  rw [stage_apply]
  rfl

/-- The program's result is the reshape of the specification function to [1024, 19, 19]. -/
theorem result_eq :
    val_main_v23 (F := Ideal) x0 x1 x2 x3 x4 x5 x6 x7
      = shapeCast _ (fun i => resultOf x0 x1 x2 x3 x4 x5 x6 x7 (i 0) (i 1)) shapeCasts_S1024x361_S1024x19x19 := by
  unfold val_main_v23
  rw [stage_eq]

end Cert.ReferenceIdeal.RefValue

end
-- ==== Proof.Pieces.lean ====
/-
  What each grid step leaves behind, as values.

  The kernel keeps two accumulators of shape [512, 2048] across the four steps of the reduction axis. At the first step
  of a row tile both are set to zero and then receive the step's partial products; at the later steps they receive the
  step's partial products on top of what the step before left; at the last step the output block is, besides, the
  log-softmax of the masked and scaled scores computed from the two finished accumulators and the resident operands.
  Each statement below says: the contents a step leaves in a buffer are the body's pure term of the blocks it loaded.
-/
import proofs.«104132_j7430293422107_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F] [Named F]

theorem hz : (![0, 0] : Fin 2 → Nat) = fun _ => 0 := funext fun a => by fin_cases a <;> rfl

/-- First step of a row tile: the kx accumulator is zeroed, then receives the step's product. -/
theorem acc0_first (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : cond0_0 i) (hc1 : ¬cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

/-- First step of a row tile: the q accumulator likewise. -/
theorem acc1_first (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : cond0_0 i) (hc1 : ¬cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay5 x0 x3 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

/-- A middle step: the kx accumulator receives the step's product on top of what it held. -/
theorem acc0_mid (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : ¬cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) (xs0 : Vec F S512x2048 .f32) (xs1 : Vec F S512x2048 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

/-- A middle step: the q accumulator likewise. -/
theorem acc1_mid (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : ¬cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) (xs0 : Vec F S512x2048 .f32) (xs1 : Vec F S512x2048 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 x0 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

/-- The last step: the kx accumulator receives the last product. -/
theorem acc0_last (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) (xs0 : Vec F S512x2048 .f32) (xs1 : Vec F S512x2048 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

/-- The last step: the q accumulator likewise. -/
theorem acc1_last (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) (xs0 : Vec F S512x2048 .f32) (xs1 : Vec F S512x2048 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 x0 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

/-- The last step: the output block is the log-softmax term of the two finished accumulators and the resident operands. -/
theorem out_last (c : Dev nD) (i : grid0.Coords) (arg2 : Memref sig .tc .vmem S512x512 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S384x64 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S512x384 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i) (x0 : Vec F S512x512 .f32) (x1 : Vec F S512x2048 .f32) (x2 : Vec F S1x2048 .f32) (x3 : Vec F S512x2048 .f32) (x4 : Vec F S1x2048 .f32) (x5 : Vec F S384x64 .f32) (x6 : Vec F S64x2048 .f32) (x7 : Vec F S1x2048 .f32) (xs0 : Vec F S512x2048 .f32) (xs1 : Vec F S512x2048 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = k0_pay6 (k0_pay7 (k0_pay4 x0 x1 xs0) x2 (k0_pay5 x0 x3 xs1) x4 x5 x6 x7) (k0_pay8 (k0_pay4 x0 x1 xs0) x2 (k0_pay5 x0 x3 xs1) x4 x5 x6 x7) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readCov_unit_zero (S := S512x2048) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S512x512) hz, View.ld_unit_zero (S := S512x2048) hz, View.ld_unit_zero (S := S1x2048) hz, View.ld_unit_zero (S := S384x64) hz, View.ld_unit_zero (S := S64x2048) hz]

end Cert.KernelIdeal.KValue

end
-- ==== Proof.AccDef.lean ====
/-
  The two accumulators after every grid step, in closed form.

  The grid is (row tile, reduction step) with the reduction step innermost: point n is step n % 4 of row tile n / 4.
  After the first step of a tile an accumulator holds zero plus that step's product; after each later step, what the step
  before left plus this step's product. The last step of a tile also writes the output block from the two finished
  accumulators. What the generated frame records point by point is exactly this recursion.
-/
import proofs.«104132_j7430293422107_2_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F] [Named F]
variable (m : (ℓ : Loc nD τ sig) → Buf (Elt F) ℓ)

/-- The kx and q accumulators after point n: reset-then-add at the first step of a row tile, add otherwise. -/
def accs (c : Dev nD) : (n : ℕ) → n < cfg0.N → Vec F S512x2048 .f32 × Vec F S512x2048 .f32
  | 0, h => (k0_pay4 (iblk m c 0 ⟨0, h⟩) (iblk m c 1 ⟨0, h⟩) k0_pay1, k0_pay5 (iblk m c 0 ⟨0, h⟩) (iblk m c 3 ⟨0, h⟩) k0_pay2)
  | n + 1, h =>
    if (n + 1) % 4 = 0 then
      (k0_pay4 (iblk m c 0 ⟨n + 1, h⟩) (iblk m c 1 ⟨n + 1, h⟩) k0_pay1, k0_pay5 (iblk m c 0 ⟨n + 1, h⟩) (iblk m c 3 ⟨n + 1, h⟩) k0_pay2)
    else
      (k0_pay4 (iblk m c 0 ⟨n + 1, h⟩) (iblk m c 1 ⟨n + 1, h⟩) (accs c n (Nat.lt_of_succ_lt h)).1,
       k0_pay5 (iblk m c 0 ⟨n + 1, h⟩) (iblk m c 3 ⟨n + 1, h⟩) (accs c n (Nat.lt_of_succ_lt h)).2)

/-- At the first step of a row tile: zero plus the step's product. -/
theorem accs_first (c : Dev nD) (n : ℕ) (h : n < cfg0.N) (h0 : n % 4 = 0) :
    accs m c n h = (k0_pay4 (iblk m c 0 ⟨n, h⟩) (iblk m c 1 ⟨n, h⟩) k0_pay1, k0_pay5 (iblk m c 0 ⟨n, h⟩) (iblk m c 3 ⟨n, h⟩) k0_pay2) := by
  cases n with
  | zero => rw [accs]
  | succ k => rw [accs, if_pos h0]

/-- At a later step: what the step before left plus this step's product. -/
theorem accs_step (c : Dev nD) (n : ℕ) (h : n + 1 < cfg0.N) (h0 : ¬(n + 1) % 4 = 0) :
    accs m c (n + 1) h
      = (k0_pay4 (iblk m c 0 ⟨n + 1, h⟩) (iblk m c 1 ⟨n + 1, h⟩) (accs m c n (Nat.lt_of_succ_lt h)).1,
         k0_pay5 (iblk m c 0 ⟨n + 1, h⟩) (iblk m c 3 ⟨n + 1, h⟩) (accs m c n (Nat.lt_of_succ_lt h)).2) := by
  rw [accs, if_neg h0]

end Cert.KernelIdeal.KValue

end
-- ==== Proof.Accum.lean ====
/-
  What the frame records point by point is the closed form of the two accumulators, and at the last step of a row tile the
  output block is the log-softmax term of the two finished accumulators and the resident operands' blocks: by induction on
  the grid point, one case per kind of step (first of a tile, middle, last).
-/
import proofs.«104132_j7430293422107_2_alg».proof.Proof.Pieces
import proofs.«104132_j7430293422107_2_alg».proof.Proof.AccDef

set_option maxRecDepth 16384
set_option maxHeartbeats 1000000

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F] [Named F]
variable (m : (ℓ : Loc nD τ sig) → Buf (Elt F) ℓ)

/-- What the frame records in the two carried buffers after point n is the closed form. -/
theorem accs_eq (c : Dev nD) : ∀ (n : ℕ) (h : n < cfg0.N), (outsAt0 m c n h).2 = accs m c n h
  | 0, h => by
    have h0 : (⟨0, h⟩ : Fin cfg0.N).val % 4 = 0 := rfl
    have h1 : ¬(⟨0, h⟩ : Fin cfg0.N).val % 4 = 3 := by show ¬(0 % 4 = 3); decide
    have hA := outsAt0_A m c (⟨0, h⟩ : Fin cfg0.N) h0 h1
    have e0 := acc0_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N))
    have e1 := acc1_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N))
    rw [show outsAt0 m c 0 h = _ from hA, accs]
    exact congrArg₂ Prod.mk e0 e1
  | n + 1, h => by
    have ih := accs_eq c n (Nat.lt_of_succ_lt h)
    by_cases h0 : (⟨n + 1, h⟩ : Fin cfg0.N).val % 4 = 0
    · have h1 : ¬(⟨n + 1, h⟩ : Fin cfg0.N).val % 4 = 3 := by dsimp only at h0 ⊢; omega
      have hA := outsAt0_A m c (⟨n + 1, h⟩ : Fin cfg0.N) h0 h1
      have e0 := acc0_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) ((hcond0_0 (⟨n + 1, h⟩ : Fin cfg0.N)).mpr h0) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N))
      have e1 := acc1_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) ((hcond0_0 (⟨n + 1, h⟩ : Fin cfg0.N)).mpr h0) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N))
      rw [show outsAt0 m c (n + 1) h = _ from hA, accs_first m c (n + 1) h h0]
      exact congrArg₂ Prod.mk e0 e1
    · have i0 : (outsAt0 m c ((⟨n + 1, h⟩ : Fin cfg0.N).val - 1) (Nat.lt_of_le_of_lt (Nat.sub_le _ _) (⟨n + 1, h⟩ : Fin cfg0.N).isLt)).2.1 = (accs m c n (Nat.lt_of_succ_lt h)).1 := congrArg Prod.fst ih
      have i1 : (outsAt0 m c ((⟨n + 1, h⟩ : Fin cfg0.N).val - 1) (Nat.lt_of_le_of_lt (Nat.sub_le _ _) (⟨n + 1, h⟩ : Fin cfg0.N).isLt)).2.2 = (accs m c n (Nat.lt_of_succ_lt h)).2 := congrArg Prod.snd ih
      by_cases h1 : (⟨n + 1, h⟩ : Fin cfg0.N).val % 4 = 3
      · have hC := outsAt0_C m c (⟨n + 1, h⟩ : Fin cfg0.N) h0 h1
        have e0 := acc0_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2
        have e1 := acc1_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2
        rw [show outsAt0 m c (n + 1) h = _ from hC, accs_step m c n h h0]
        exact congrArg₂ Prod.mk (e0.trans (congrArg (k0_pay4 (iblk m c 0 (⟨n + 1, h⟩ : Fin cfg0.N)) (iblk m c 1 (⟨n + 1, h⟩ : Fin cfg0.N))) i0))
          (e1.trans (congrArg (k0_pay5 (iblk m c 0 (⟨n + 1, h⟩ : Fin cfg0.N)) (iblk m c 3 (⟨n + 1, h⟩ : Fin cfg0.N))) i1))
      · have hB := outsAt0_B m c (⟨n + 1, h⟩ : Fin cfg0.N) h0 h1
        have e0 := acc0_mid c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2
        have e1 := acc1_mid c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2
        rw [show outsAt0 m c (n + 1) h = _ from hB, accs_step m c n h h0]
        exact congrArg₂ Prod.mk (e0.trans (congrArg (k0_pay4 (iblk m c 0 (⟨n + 1, h⟩ : Fin cfg0.N)) (iblk m c 1 (⟨n + 1, h⟩ : Fin cfg0.N))) i0))
          (e1.trans (congrArg (k0_pay5 (iblk m c 0 (⟨n + 1, h⟩ : Fin cfg0.N)) (iblk m c 3 (⟨n + 1, h⟩ : Fin cfg0.N))) i1))

/-- At the last step of a row tile the output block is the log-softmax term of the two finished accumulators and the
    resident operands' blocks. -/
theorem out_eq (c : Dev nD) (n : ℕ) (h : n + 1 < cfg0.N) (h1 : (⟨n + 1, h⟩ : Fin cfg0.N).val % 4 = 3) :
    (outsAt0 m c (n + 1) h).1
      = k0_pay6 (k0_pay7 (accs m c (n + 1) h).1 (iblk m c 2 (⟨n + 1, h⟩ : Fin cfg0.N)) (accs m c (n + 1) h).2 (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)))
                (k0_pay8 (accs m c (n + 1) h).1 (iblk m c 2 (⟨n + 1, h⟩ : Fin cfg0.N)) (accs m c (n + 1) h).2 (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N))) := by
  have h0 : ¬(⟨n + 1, h⟩ : Fin cfg0.N).val % 4 = 0 := by dsimp only at h1 ⊢; omega
  have ih := accs_eq m c n (Nat.lt_of_succ_lt h)
  have i0 : (outsAt0 m c ((⟨n + 1, h⟩ : Fin cfg0.N).val - 1) (Nat.lt_of_le_of_lt (Nat.sub_le _ _) (⟨n + 1, h⟩ : Fin cfg0.N).isLt)).2.1 = (accs m c n (Nat.lt_of_succ_lt h)).1 := congrArg Prod.fst ih
  have i1 : (outsAt0 m c ((⟨n + 1, h⟩ : Fin cfg0.N).val - 1) (Nat.lt_of_le_of_lt (Nat.sub_le _ _) (⟨n + 1, h⟩ : Fin cfg0.N).isLt)).2.2 = (accs m c n (Nat.lt_of_succ_lt h)).2 := congrArg Prod.snd ih
  have a0 : (accs m c (n + 1) h).1 = k0_pay4 (iblk m c 0 (⟨n + 1, h⟩ : Fin cfg0.N)) (iblk m c 1 (⟨n + 1, h⟩ : Fin cfg0.N)) (accs m c n (Nat.lt_of_succ_lt h)).1 :=
    congrArg Prod.fst (accs_step m c n h h0)
  have a1 : (accs m c (n + 1) h).2 = k0_pay5 (iblk m c 0 (⟨n + 1, h⟩ : Fin cfg0.N)) (iblk m c 3 (⟨n + 1, h⟩ : Fin cfg0.N)) (accs m c n (Nat.lt_of_succ_lt h)).2 :=
    congrArg Prod.snd (accs_step m c n h h0)
  have hC := outsAt0_C m c (⟨n + 1, h⟩ : Fin cfg0.N) h0 h1
  have eo := out_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2
  rw [i0, i1] at eo
  rw [show outsAt0 m c (n + 1) h = _ from hC, i0, i1, a0, a1]
  exact eo

/-- The same at a grid point t with t % 4 = 3. -/
theorem out_at (c : Dev nD) (t : Fin cfg0.N) (h3 : t.val % 4 = 3) :
    (outsAt0 m c t.val t.isLt).1
      = k0_pay6 (k0_pay7 (accs m c t.val t.isLt).1 (iblk m c 2 t) (accs m c t.val t.isLt).2 (iblk m c 4 t) (iblk m c 5 t) (iblk m c 6 t) (iblk m c 7 t))
                (k0_pay8 (accs m c t.val t.isLt).1 (iblk m c 2 t) (accs m c t.val t.isLt).2 (iblk m c 4 t) (iblk m c 5 t) (iblk m c 6 t) (iblk m c 7 t)) := by
  obtain ⟨n, h⟩ := t
  cases n with
  | zero => exact absurd h3 (by show ¬(0 % 4 = 3); decide)
  | succ n => exact out_eq m c n h h3

end Cert.KernelIdeal.KValue

end
-- ==== Proof.BlockReads.lean ====
/-
  The kernel's input blocks read through their windows at a grid point.

  The launch runs over a grid of 2 × 4 points; point t is row tile t / 4 and reduction step t % 4. A window cuts its
  array into blocks of a fixed size and hands point t the block at the block index its index map gives; the entry at a
  coordinate inside a block is the array's entry at (block index × block size + coordinate) on each axis. The lemmas
  below say, for each of the eight input windows, which entry of its array an entry of its block at point t is: x is cut
  into 512 × 512 blocks at (t / 4, t % 4), the two large weight matrices into 512 × 2048 blocks at (t % 4, 0), and the
  other five arrays are handed over whole at every point.
-/
import proofs.«104132_j7430293422107_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx

variable {F : FTy → Type} [FloatOps F] [Named F] (m : (ℓ : Loc nD τ sig) → Buf (Elt F) ℓ)

/-- row r of row tile ⌊t/4⌋ -/
def rowOf (t : Fin cfg0.N) (r : Fin 512) : Fin 1024 :=
  ⟨512 * (t.val / 4) + r.val, by have := t.isLt; have hN : cfg0.N = 8 := N_0; have := r.isLt; omega⟩
/-- position k of reduction block t % 4 -/
def colOf (t : Fin cfg0.N) (k : Fin 512) : Fin 2048 := ⟨512 * (t.val % 4) + k.val, by have := k.isLt; omega⟩

/-- Window 0 hands point t the block (t / 4, t % 4) of x. -/
theorem idx_x (t : Fin cfg0.N) : win0_0.index t 0 = t.val / 4 ∧ win0_0.index t 1 = t.val % 4 := by
  rcases fin_N0 t with rfl | rfl | rfl | rfl | rfl | rfl | rfl | rfl <;> decide

theorem blk_x (c : Dev nD) (t : Fin cfg0.N) (r k : Fin 512) :
    (iblk m c 0 t : Vec F S512x512 .f32) (ix2 r k) = V m c main_arg0 (ix2 (rowOf t r) (colOf t k)) := by
  have hi := idx_x t
  unfold iblk
  rw [View.read_apply]
  show V m c main_arg0 _ = V m c main_arg0 _
  congr 1
  funext a
  apply Fin.ext
  match a with
  | ⟨0, _⟩ => show win0_0.index t 0 * 512 + 1 * r.val = 512 * (t.val / 4) + r.val; rw [hi.1]; omega
  | ⟨1, _⟩ => show win0_0.index t 1 * 512 + 1 * k.val = 512 * (t.val % 4) + k.val; rw [hi.2]; omega

/-- Windows 1 and 3 hand point t the block (t % 4, 0) of their weight matrix. -/
theorem idx_wkx (t : Fin cfg0.N) : win0_1.index t 0 = t.val % 4 ∧ win0_1.index t 1 = 0 := by
  rcases fin_N0 t with rfl | rfl | rfl | rfl | rfl | rfl | rfl | rfl <;> decide
theorem idx_wq (t : Fin cfg0.N) : win0_3.index t 0 = t.val % 4 ∧ win0_3.index t 1 = 0 := by
  rcases fin_N0 t with rfl | rfl | rfl | rfl | rfl | rfl | rfl | rfl <;> decide
/-- The other five input windows hand every point the block (0, 0): the whole array. -/
theorem idx_bkx (t : Fin cfg0.N) : win0_2.index t 0 = 0 ∧ win0_2.index t 1 = 0 := by
  rcases fin_N0 t with rfl | rfl | rfl | rfl | rfl | rfl | rfl | rfl <;> decide
theorem idx_bq (t : Fin cfg0.N) : win0_4.index t 0 = 0 ∧ win0_4.index t 1 = 0 := by
  rcases fin_N0 t with rfl | rfl | rfl | rfl | rfl | rfl | rfl | rfl <;> decide
theorem idx_pf (t : Fin cfg0.N) : win0_5.index t 0 = 0 ∧ win0_5.index t 1 = 0 := by
  rcases fin_N0 t with rfl | rfl | rfl | rfl | rfl | rfl | rfl | rfl <;> decide
theorem idx_wkp (t : Fin cfg0.N) : win0_6.index t 0 = 0 ∧ win0_6.index t 1 = 0 := by
  rcases fin_N0 t with rfl | rfl | rfl | rfl | rfl | rfl | rfl | rfl <;> decide
theorem idx_bkp (t : Fin cfg0.N) : win0_7.index t 0 = 0 ∧ win0_7.index t 1 = 0 := by
  rcases fin_N0 t with rfl | rfl | rfl | rfl | rfl | rfl | rfl | rfl <;> decide

theorem blk_wkx (c : Dev nD) (t : Fin cfg0.N) (k : Fin 512) (d : Fin 2048) :
    (iblk m c 1 t : Vec F S512x2048 .f32) (ix2 k d) = V m c main_arg4 (ix2 (colOf t k) d) := by
  have hi := idx_wkx t
  unfold iblk
  rw [View.read_apply]
  show V m c main_arg4 _ = V m c main_arg4 _
  congr 1
  funext a
  apply Fin.ext
  match a with
  | ⟨0, _⟩ => show win0_1.index t 0 * 512 + 1 * k.val = 512 * (t.val % 4) + k.val; rw [hi.1]; omega
  | ⟨1, _⟩ => show win0_1.index t 1 * 2048 + 1 * d.val = d.val; rw [hi.2]; omega

theorem blk_wq (c : Dev nD) (t : Fin cfg0.N) (k : Fin 512) (d : Fin 2048) :
    (iblk m c 3 t : Vec F S512x2048 .f32) (ix2 k d) = V m c main_arg6 (ix2 (colOf t k) d) := by
  have hi := idx_wq t
  unfold iblk
  rw [View.read_apply]
  show V m c main_arg6 _ = V m c main_arg6 _
  congr 1
  funext a
  apply Fin.ext
  match a with
  | ⟨0, _⟩ => show win0_3.index t 0 * 512 + 1 * k.val = 512 * (t.val % 4) + k.val; rw [hi.1]; omega
  | ⟨1, _⟩ => show win0_3.index t 1 * 2048 + 1 * d.val = d.val; rw [hi.2]; omega

theorem blk_bkx (c : Dev nD) (t : Fin cfg0.N) (d : Fin 2048) :
    (iblk m c 2 t : Vec F S1x2048 .f32) (ix2 (0 : Fin 1) d) = V m c main_v3 (ix2 (0 : Fin 1) d) := by
  have hi := idx_bkx t
  unfold iblk
  rw [View.read_apply]
  show V m c main_v3 _ = V m c main_v3 _
  congr 1
  funext a
  apply Fin.ext
  match a with
  | ⟨0, _⟩ => show win0_2.index t 0 * 1 + 1 * 0 = 0; rw [hi.1]
  | ⟨1, _⟩ => show win0_2.index t 1 * 2048 + 1 * d.val = d.val; rw [hi.2]; omega

theorem blk_bq (c : Dev nD) (t : Fin cfg0.N) (d : Fin 2048) :
    (iblk m c 4 t : Vec F S1x2048 .f32) (ix2 (0 : Fin 1) d) = V m c main_v4 (ix2 (0 : Fin 1) d) := by
  have hi := idx_bq t
  unfold iblk
  rw [View.read_apply]
  show V m c main_v4 _ = V m c main_v4 _
  congr 1
  funext a
  apply Fin.ext
  match a with
  | ⟨0, _⟩ => show win0_4.index t 0 * 1 + 1 * 0 = 0; rw [hi.1]
  | ⟨1, _⟩ => show win0_4.index t 1 * 2048 + 1 * d.val = d.val; rw [hi.2]; omega

theorem blk_pf (c : Dev nD) (t : Fin cfg0.N) (p : Fin 384) (e : Fin 64) :
    (iblk m c 5 t : Vec F S384x64 .f32) (ix2 p e) = V m c main_v1 (ix2 p e) := by
  have hi := idx_pf t
  unfold iblk
  rw [View.read_apply]
  show V m c main_v1 _ = V m c main_v1 _
  congr 1
  funext a
  apply Fin.ext
  match a with
  | ⟨0, _⟩ => show win0_5.index t 0 * 384 + 1 * p.val = p.val; rw [hi.1]; omega
  | ⟨1, _⟩ => show win0_5.index t 1 * 64 + 1 * e.val = e.val; rw [hi.2]; omega

theorem blk_wkp (c : Dev nD) (t : Fin cfg0.N) (e : Fin 64) (d : Fin 2048) :
    (iblk m c 6 t : Vec F S64x2048 .f32) (ix2 e d) = V m c main_arg2 (ix2 e d) := by
  have hi := idx_wkp t
  unfold iblk
  rw [View.read_apply]
  show V m c main_arg2 _ = V m c main_arg2 _
  congr 1
  funext a
  apply Fin.ext
  match a with
  | ⟨0, _⟩ => show win0_6.index t 0 * 64 + 1 * e.val = e.val; rw [hi.1]; omega
  | ⟨1, _⟩ => show win0_6.index t 1 * 2048 + 1 * d.val = d.val; rw [hi.2]; omega

theorem blk_bkp (c : Dev nD) (t : Fin cfg0.N) (d : Fin 2048) :
    (iblk m c 7 t : Vec F S1x2048 .f32) (ix2 (0 : Fin 1) d) = V m c main_v2 (ix2 (0 : Fin 1) d) := by
  have hi := idx_bkp t
  unfold iblk
  rw [View.read_apply]
  show V m c main_v2 _ = V m c main_v2 _
  congr 1
  funext a
  apply Fin.ext
  match a with
  | ⟨0, _⟩ => show win0_7.index t 0 * 1 + 1 * 0 = 0; rw [hi.1]
  | ⟨1, _⟩ => show win0_7.index t 1 * 2048 + 1 * d.val = d.val; rw [hi.2]; omega

end Cert.KernelIdeal.KValue

end
-- ==== Proof.Algebra.lean ====
/-
  The three laws of the extended reals by which the kernel's arithmetic meets the reference's.

  (i)  A sum over 2048 indices is the sum of its four consecutive blocks of 512, added one after the other to a zero:
       addition of extended reals is commutative and associative with no finiteness condition, so a finite sum may be
       regrouped freely.
  (ii) A row of 361 entries continued by 23 entries equal to −∞ has the same maximum (−∞ is the bottom of the order) and
       the same log-softmax: x − M = −∞ whenever x = −∞, whatever M is, and exp (−∞) = 0, so the extra columns add zeros
       to the sum of exponentials.
  (iii) The divisor D is the rational 11863283 / 2^18, and a product with 2^18 / 11863283 is the quotient by D at every
       extended real, the infinities included.
-/
import proofs.«104132_j7430293422107_2_alg».proof.Proof.Spec

noncomputable section

open Idealize.ShloMosaic

namespace Cert.Bridge

/-! ### (i) four blocks of 512 -/

/-- position k of block j of a length-2048 axis cut into four blocks of 512 -/
def blk (j : Fin 4) (k : Fin 512) : Fin 2048 := ⟨512 * j.val + k.val, by have := j.isLt; have := k.isLt; omega⟩

/-- The pairs (block, position in the block) enumerate the 2048 indices: the sum over all indices is the double sum. -/
theorem sum_blk (f : Fin 2048 → EReal) : ∑ k : Fin 2048, f k = ∑ j : Fin 4, ∑ k : Fin 512, f (blk j k) := by
  rw [← Fintype.sum_prod_type (f := fun p : Fin 4 × Fin 512 => f (blk p.1 p.2))]
  refine (Fintype.sum_equiv (finProdFinEquiv (m := 4) (n := 512)) _ _ ?_).symm
  rintro ⟨j, k⟩
  congr 1
  ext
  simp [blk, finProdFinEquiv]
  omega

theorem sum_four_blocks (f : Fin 2048 → EReal) :
    ((((0 : EReal) + ∑ k : Fin 512, f (blk 0 k)) + ∑ k : Fin 512, f (blk 1 k)) + ∑ k : Fin 512, f (blk 2 k)) + ∑ k : Fin 512, f (blk 3 k)
      = ∑ k : Fin 2048, f k := by
  rw [sum_blk, Fin.sum_univ_four, zero_add]

/-! ### (ii) padding a row with −∞ -/

/-- Every entry is at most the row's maximum. -/
theorem le_rowMax {n : ℕ} (row : Fin n → EReal) (j : Fin n) : row j ≤ rowMax row :=
  (Finset.le_fold_max _).mpr (Or.inr ⟨j, Finset.mem_univ j, le_rfl⟩)

/-- A bound of every entry bounds the row's maximum. -/
theorem rowMax_le {n : ℕ} (row : Fin n → EReal) (c : EReal) (h : ∀ j, row j ≤ c) : rowMax row ≤ c :=
  (Finset.fold_max_le _).mpr ⟨bot_le, fun j _ => h j⟩

theorem rowMax_pad (row : Fin 361 → EReal) (row' : Fin 384 → EReal)
    (h1 : ∀ j : Fin 361, row' ⟨j.val, by have := j.isLt; omega⟩ = row j) (h2 : ∀ j : Fin 384, 361 ≤ j.val → row' j = ⊥) :
    rowMax row' = rowMax row := by
  apply le_antisymm
  · refine rowMax_le row' _ fun j => ?_
    by_cases hj : j.val < 361
    · have := h1 ⟨j.val, hj⟩
      rw [show row' j = row ⟨j.val, hj⟩ from this]
      exact le_rowMax row _
    · rw [h2 j (by omega)]
      exact bot_le
  · refine rowMax_le row _ fun j => ?_
    rw [← h1 j]
    exact le_rowMax row' _

/-- −∞ minus anything is −∞, and its exponential is 0. -/
theorem exp_bot_sub (M : EReal) : Ideal.exp (⊥ - M) = 0 := by
  rw [sub_eq_add_neg, EReal.bot_add, Ideal.exp_bot]

theorem logSoftmax_pad (row : Fin 361 → EReal) (row' : Fin 384 → EReal)
    (h1 : ∀ j : Fin 361, row' ⟨j.val, by have := j.isLt; omega⟩ = row j) (h2 : ∀ j : Fin 384, 361 ≤ j.val → row' j = ⊥) (j : Fin 361) :
    logSoftmax row' ⟨j.val, by have := j.isLt; omega⟩ = logSoftmax row j := by
  have hM : rowMax row' = rowMax row := rowMax_pad row row' h1 h2
  have hS : ∑ j' : Fin 384, Ideal.exp (row' j' - rowMax row) = ∑ j' : Fin 361, Ideal.exp (row j' - rowMax row) := by
    have := Fin.sum_univ_add (a := 361) (b := 23) (fun j' : Fin (361 + 23) => Ideal.exp (row' j' - rowMax row))
    rw [this]
    have hz : ∑ i : Fin 23, Ideal.exp (row' (Fin.natAdd 361 i) - rowMax row) = 0 := by
      refine Finset.sum_eq_zero fun i _ => ?_
      rw [h2 (Fin.natAdd 361 i) (by simp), exp_bot_sub]
    rw [hz, add_zero]
    refine Finset.sum_congr rfl fun i _ => ?_
    rw [show row' (Fin.castAdd 23 i) = row i from h1 i]
  unfold logSoftmax
  rw [hM, hS, h1 j]

/-! ### (iii) the divisor -/

theorem divisor_eq : divisor = ((11863283 / 262144 : ℝ) : EReal) := by
  simp [Ideal.ofBits, Ideal.ieee, -EReal.coe_mul]; norm_num

theorem mul_inv_eq_div (s : EReal) : s * ((262144 / 11863283 : ℝ) : EReal) = Ideal.div s divisor := by
  rw [divisor_eq, Ideal.div_coe (by norm_num)]
  congr 2
  norm_num

end Cert.Bridge

end
-- ==== Proof.Consts.lean ====
/-
  The two constants the idealized kernel names, read at the extended reals.

  The kernel scales its scores by the single-precision word nearest to 1/√2048 and the reference divides them by the
  single-precision word D nearest to √2048, D = 11863283 / 2^18; the named scale is the exact reciprocal 1/D = 2^18 / 11863283,
  so that a product with it IS the quotient by D on every extended real. The kernel's fill for the padded score columns
  361 … 383 is named −∞: the bottom of the order, absorbed by a maximum, and sent to 0 by the exponential.
-/
import proofs.«104132_j7430293422107_2_alg».proof.KernelIdeal
import Idealize.ShloMosaic.PureOps.IdealRules

noncomputable section

open Idealize.ShloMosaic

namespace Cert.Bridge

/-- The named scale is the rational 2^18 / 11863283, the reciprocal of the reference's divisor. -/
theorem inv_sqrt_d :
    Named.named (F := Ideal) Cert.KernelIdeal.κ "inv_sqrt_d" (φ := .f32) 0x3CB504F3#32 = ((262144 / 11863283 : ℝ) : EReal) :=
  IdealRules.named_const.ideal_named_scalar _ _ _ _ rfl

/-- The named fill of the padded columns is −∞. -/
theorem neg_fill :
    Named.named (F := Ideal) Cert.KernelIdeal.κ "neg_fill" (φ := .f32) 0xFF333332#32 = (⊥ : EReal) :=
  IdealRules.named_const.ideal_named_scalar _ _ _ _ rfl

end Cert.Bridge

end
-- ==== Proof.Payload.lean ====
/-
  The kernel body's arithmetic read at an index, at the extended reals.

  The two zero fills are the constant 0. Each accumulation step adds, to the accumulator at (r, d), the product of a
  512 × 512 block of the input with a 512 × 2048 block of a weight matrix: the sum over the 512 contraction indices of
  the products of the entries (the narrowing of the operands is the identity on extended reals).
-/
import proofs.«104132_j7430293422107_2_alg».proof.Proof.Gen.KernelIdeal.Skeleton
import proofs.«104132_j7430293422107_2_alg».proof.Proof.Algebra
import proofs.«104132_j7430293422107_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

open Cert.KernelIdeal Cert.KernelIdeal.Gen Idealize.ShloMosaic Idealize.ShloMosaic.ValueIdx

namespace Cert.Bridge

/-! ### The zero fills -/

theorem pay1_apply (j : S512x2048.Idx) : k0_pay1 (F := Ideal) j = 0 := by
  unfold k0_pay1
  rw [shapeCast_self]
  exact Ideal.ofBits_zero_f32

theorem pay2_apply (j : S512x2048.Idx) : k0_pay2 (F := Ideal) j = 0 := by
  unfold k0_pay2
  rw [shapeCast_self]
  exact Ideal.ofBits_zero_f32

/-! ### A matrix product into the zero accumulator, read at (r, d) -/

theorem lhs_a_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
theorem lhs_a_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_a_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_a_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The product of a 512 × 512 block by a 512 × 2048 block, into the zero accumulator, at (p, q): the sum over the contraction
    index k of the entry (p, k) of the left operand times the entry (k, q) of the right one. -/
theorem matmul_a_apply {φ₁ φ₂ : FTy} (lhs : FVec Ideal S512x512 φ₁) (rhs : FVec Ideal S512x2048 φ₂) (p : Fin 512) (q : Fin 2048) :
    FloatOps.matmul dot_S512x512_S512x2048_S512x2048_1_0_0_1_n_n none lhs rhs (constant (F := Ideal) S512x2048 .f32 0x00000000#32) (ix2 p q)
      = ∑ k : Fin 512, lhs (ix2 p k) * rhs (ix2 k q) := by
  refine (Ideal.matmul_constant_zero_apply dot_S512x512_S512x2048_S512x2048_1_0_0_1_n_n none lhs rhs (ix2 p q)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k :=
    funext fun a => Fin.ext (by
      match a with
      | ⟨0, _⟩ => exact lhs_a_0 _ _
      | ⟨1, _⟩ => exact (lhs_a_1 _ _).trans hk)
  have er : dot_S512x512_S512x2048_S512x2048_1_0_0_1_n_n.rhsIdx (ix2 p q) ((contrEquiv1 dot_S512x512_S512x2048_S512x2048_1_0_0_1_n_n 512 rfl rfl).symm k) = ix2 k q :=
    funext fun a => Fin.ext (by
      match a with
      | ⟨0, _⟩ => exact (rhs_a_0 _ _).trans hk
      | ⟨1, _⟩ => exact rhs_a_1 _ _)
  rw [el, er]

/-! ### The two accumulation steps -/

theorem pay4_apply (x : Vec Ideal S512x512 .f32) (w acc : Vec Ideal S512x2048 .f32) (r : Fin 512) (d : Fin 2048) :
    k0_pay4 x w acc (ix2 r d) = acc (ix2 r d) + ∑ k : Fin 512, x (ix2 r k) * w (ix2 k d) := by
  unfold k0_pay4 k0_pay3
  rw [shapeCast_self]
  refine congrArg (acc (ix2 r d) + ·) ?_
  exact matmul_a_apply _ _ r d

theorem pay5_apply (x : Vec Ideal S512x512 .f32) (w acc : Vec Ideal S512x2048 .f32) (r : Fin 512) (d : Fin 2048) :
    k0_pay5 x w acc (ix2 r d) = acc (ix2 r d) + ∑ k : Fin 512, x (ix2 r k) * w (ix2 k d) := by
  unfold k0_pay5 k0_pay3
  rw [shapeCast_self]
  refine congrArg (acc (ix2 r d) + ·) ?_
  exact matmul_a_apply _ _ r d

end Cert.Bridge

end
-- ==== Proof.AccumValue.lean ====
/-
  The two finished accumulators as whole dot products, at the extended reals.

  Point n of the grid is reduction step n % 4 of row tile n / 4. The first step of a tile leaves in an accumulator
  0 + S₀ and each later step adds its own product: after step j the accumulator holds (((0 + S₀) + S₁) + …) + S_j, where
  S_j (r, d) = ∑_{k < 512} x (512 · (n / 4) + r, 512 · j + k) · W (512 · j + k, d) is the product of the j-th 512-wide block
  of row r of the tile with the j-th 512-high block of column d of the weight matrix. The row does not change along the
  four steps of a tile. After step 3 the four blocks cover the 2048 contraction indices, and a finite sum of extended
  reals may be regrouped freely: the accumulator holds ∑_{k < 2048} x (row, k) · W (k, d).
-/
import proofs.«104132_j7430293422107_2_alg».proof.Proof.AccDef
import proofs.«104132_j7430293422107_2_alg».proof.Proof.BlockReads
import proofs.«104132_j7430293422107_2_alg».proof.Proof.Payload
import proofs.«104132_j7430293422107_2_alg».proof.Proof.Algebra

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx Cert.Bridge

variable (m : (ℓ : Loc nD τ sig) → Buf (Elt Ideal) ℓ)

/-- The partial sums of four blocks added one after the other to a zero: after step j, (((0 + ∑ g 0) + ∑ g 1) + …) + ∑ g j. -/
def psum (g : Fin 4 → Fin 512 → EReal) : (j : ℕ) → j < 4 → EReal
  | 0, _ => 0 + ∑ k, g 0 k
  | j + 1, hj => psum g j (by omega) + ∑ k, g ⟨j + 1, hj⟩ k

/-- After the fourth step the partial sum is the sum over all 2048 indices. -/
theorem psum_three (f : Fin 2048 → EReal) (h : 3 < 4) : psum (fun j k => f (blk j k)) 3 h = ∑ k : Fin 2048, f k := by
  rw [← sum_four_blocks f]
  rfl

/-- Reduction step n % 4 = j reads the contraction indices of block j. -/
theorem colOf_eq (n : ℕ) (h : n < cfg0.N) (j : ℕ) (hj : j < 4) (e : n % 4 = j) (k : Fin 512) :
    colOf ⟨n, h⟩ k = blk ⟨j, hj⟩ k :=
  Fin.ext (by show 512 * (n % 4) + k.val = 512 * j + k.val; rw [e])

/-- The row is the same along the steps of one tile. -/
theorem rowOf_succ (n : ℕ) (h : n + 1 < cfg0.N) (h0 : ¬(n + 1) % 4 = 0) (r : Fin 512) :
    rowOf ⟨n, Nat.lt_of_succ_lt h⟩ r = rowOf ⟨n + 1, h⟩ r :=
  Fin.ext (by show 512 * (n / 4) + r.val = 512 * ((n + 1) / 4) + r.val; omega)

/-! ### The three arrays, as the region finds them, as functions to the extended reals -/

/-- x -/
abbrev xArr (c : Dev nD) : (⟨2, ![1024, 2048]⟩ : Shape).Idx → EReal := V m c main_arg0
/-- W_kx -/
abbrev wkxArr (c : Dev nD) : (⟨2, ![2048, 2048]⟩ : Shape).Idx → EReal := V m c main_arg4
/-- W_q -/
abbrev wqArr (c : Dev nD) : (⟨2, ![2048, 2048]⟩ : Shape).Idx → EReal := V m c main_arg6

/-- A sum of products of entries of two blocks, the entries named one by one. -/
theorem sum_mul_congr (x : Vec Ideal S512x512 .f32) (w : Vec Ideal S512x2048 .f32) (r : Fin 512) (d : Fin 2048)
    (A B : Fin 512 → EReal) (hx : ∀ k, x (ix2 r k) = A k) (hw : ∀ k, w (ix2 k d) = B k) :
    ∑ k : Fin 512, x (ix2 r k) * w (ix2 k d) = ∑ k : Fin 512, A k * B k :=
  Finset.sum_congr rfl fun k _ => by rw [hx, hw]

/-! ### The kx accumulator -/

/-- Block j of the product of row `row` of x with column d of W_kx. -/
def gkx (c : Dev nD) (row : Fin 1024) (d : Fin 2048) : Fin 4 → Fin 512 → EReal :=
  fun j k => xArr m c (ix2 row (blk j k)) * wkxArr m c (ix2 (blk j k) d)

/-- One accumulation step at point t, at (r, d): the accumulator plus block t % 4 of the whole product. -/
theorem pay4_at (c : Dev nD) (t : Fin cfg0.N) (j : Fin 4) (e : ∀ k, colOf t k = blk j k) (acc : Vec Ideal S512x2048 .f32)
    (r : Fin 512) (d : Fin 2048) :
    k0_pay4 (iblk m c 0 t) (iblk m c 1 t) acc (ix2 r d) = acc (ix2 r d) + ∑ k : Fin 512, gkx m c (rowOf t r) d j k := by
  refine (pay4_apply (iblk m c 0 t) (iblk m c 1 t) acc r d).trans ?_
  refine congrArg (acc (ix2 r d) + ·) ?_
  exact sum_mul_congr (iblk m c 0 t) (iblk m c 1 t) r d
    (fun k => xArr m c (ix2 (rowOf t r) (blk j k))) (fun k => wkxArr m c (ix2 (blk j k) d))
    (fun k => by rw [← e k]; exact blk_x m c t r k) (fun k => by rw [← e k]; exact blk_wkx m c t k d)

/-- After step j of a tile the kx accumulator holds the partial sum of the blocks 0 … j. -/
theorem acc_kx_steps (c : Dev nD) : ∀ (n : ℕ) (h : n < cfg0.N) (j : ℕ) (hj : j < 4), n % 4 = j → ∀ (r : Fin 512) (d : Fin 2048),
    ((accs m c n h).1 : Vec Ideal S512x2048 .f32) (ix2 r d) = psum (gkx m c (rowOf ⟨n, h⟩ r) d) j hj := by
  intro n
  induction n with
  | zero =>
    intro h j hj e r d
    obtain rfl : j = 0 := e.symm
    rw [accs_first m c 0 h rfl]
    refine (pay4_at m c ⟨0, h⟩ 0 (colOf_eq 0 h 0 hj rfl) (k0_pay1 (F := Ideal)) r d).trans ?_
    rw [pay1_apply]
    rfl
  | succ n ih =>
    intro h j hj e r d
    match j, hj, e with
    | 0, hj, e =>
      rw [accs_first m c (n + 1) h e]
      refine (pay4_at m c ⟨n + 1, h⟩ 0 (colOf_eq (n + 1) h 0 hj e) (k0_pay1 (F := Ideal)) r d).trans ?_
      rw [pay1_apply]
      rfl
    | j + 1, hj, e =>
      have h0 : ¬(n + 1) % 4 = 0 := by omega
      rw [accs_step m c n h h0]
      refine (pay4_at m c ⟨n + 1, h⟩ ⟨j + 1, hj⟩ (colOf_eq (n + 1) h (j + 1) hj e)
        (accs m c n (Nat.lt_of_succ_lt h)).1 r d).trans ?_
      rw [ih (Nat.lt_of_succ_lt h) j (by omega) (by omega) r d, rowOf_succ n h h0 r]
      rfl

/-- After the last step of a tile the kx accumulator holds the whole product x · W_kx at (row, d). -/
theorem acc_kx (c : Dev nD) (n : ℕ) (h : n < cfg0.N) (h3 : n % 4 = 3) (r : Fin 512) (d : Fin 2048) :
    ((accs m c n h).1 : Vec Ideal S512x2048 .f32) (ix2 r d)
      = ∑ k : Fin 2048, xArr m c (ix2 (rowOf ⟨n, h⟩ r) k) * wkxArr m c (ix2 k d) := by
  rw [acc_kx_steps m c n h 3 (by decide) h3 r d]
  exact psum_three (fun k => xArr m c (ix2 (rowOf ⟨n, h⟩ r) k) * wkxArr m c (ix2 k d)) _

/-! ### The q accumulator -/

/-- Block j of the product of row `row` of x with column d of W_q. -/
def gq (c : Dev nD) (row : Fin 1024) (d : Fin 2048) : Fin 4 → Fin 512 → EReal :=
  fun j k => xArr m c (ix2 row (blk j k)) * wqArr m c (ix2 (blk j k) d)

/-- One accumulation step at point t, at (r, d): the accumulator plus block t % 4 of the whole product. -/
theorem pay5_at (c : Dev nD) (t : Fin cfg0.N) (j : Fin 4) (e : ∀ k, colOf t k = blk j k) (acc : Vec Ideal S512x2048 .f32)
    (r : Fin 512) (d : Fin 2048) :
    k0_pay5 (iblk m c 0 t) (iblk m c 3 t) acc (ix2 r d) = acc (ix2 r d) + ∑ k : Fin 512, gq m c (rowOf t r) d j k := by
  refine (pay5_apply (iblk m c 0 t) (iblk m c 3 t) acc r d).trans ?_
  refine congrArg (acc (ix2 r d) + ·) ?_
  exact sum_mul_congr (iblk m c 0 t) (iblk m c 3 t) r d
    (fun k => xArr m c (ix2 (rowOf t r) (blk j k))) (fun k => wqArr m c (ix2 (blk j k) d))
    (fun k => by rw [← e k]; exact blk_x m c t r k) (fun k => by rw [← e k]; exact blk_wq m c t k d)

/-- After step j of a tile the q accumulator holds the partial sum of the blocks 0 … j. -/
theorem acc_q_steps (c : Dev nD) : ∀ (n : ℕ) (h : n < cfg0.N) (j : ℕ) (hj : j < 4), n % 4 = j → ∀ (r : Fin 512) (d : Fin 2048),
    ((accs m c n h).2 : Vec Ideal S512x2048 .f32) (ix2 r d) = psum (gq m c (rowOf ⟨n, h⟩ r) d) j hj := by
  intro n
  induction n with
  | zero =>
    intro h j hj e r d
    obtain rfl : j = 0 := e.symm
    rw [accs_first m c 0 h rfl]
    refine (pay5_at m c ⟨0, h⟩ 0 (colOf_eq 0 h 0 hj rfl) (k0_pay2 (F := Ideal)) r d).trans ?_
    rw [pay2_apply]
    rfl
  | succ n ih =>
    intro h j hj e r d
    match j, hj, e with
    | 0, hj, e =>
      rw [accs_first m c (n + 1) h e]
      refine (pay5_at m c ⟨n + 1, h⟩ 0 (colOf_eq (n + 1) h 0 hj e) (k0_pay2 (F := Ideal)) r d).trans ?_
      rw [pay2_apply]
      rfl
    | j + 1, hj, e =>
      have h0 : ¬(n + 1) % 4 = 0 := by omega
      rw [accs_step m c n h h0]
      refine (pay5_at m c ⟨n + 1, h⟩ ⟨j + 1, hj⟩ (colOf_eq (n + 1) h (j + 1) hj e)
        (accs m c n (Nat.lt_of_succ_lt h)).2 r d).trans ?_
      rw [ih (Nat.lt_of_succ_lt h) j (by omega) (by omega) r d, rowOf_succ n h h0 r]
      rfl

/-- After the last step of a tile the q accumulator holds the whole product x · W_q at (row, d). -/
theorem acc_q (c : Dev nD) (n : ℕ) (h : n < cfg0.N) (h3 : n % 4 = 3) (r : Fin 512) (d : Fin 2048) :
    ((accs m c n h).2 : Vec Ideal S512x2048 .f32) (ix2 r d)
      = ∑ k : Fin 2048, xArr m c (ix2 (rowOf ⟨n, h⟩ r) k) * wqArr m c (ix2 k d) := by
  rw [acc_q_steps m c n h 3 (by decide) h3 r d]
  exact psum_three (fun k => xArr m c (ix2 (rowOf ⟨n, h⟩ r) k) * wqArr m c (ix2 k d)) _

end Cert.KernelIdeal.KValue

end
-- ==== Proof.Blocks.lean ====
/-
  From the output's blocks to the whole output array.

  The launch runs over a grid of 2 × 4 points; point t is row tile t / 4 and reduction step t % 4. The 1024 × 384 output
  array is cut into two blocks of 512 rows, and point t works on block t / 4. Only the last reduction step of a row tile
  (t % 4 = 3, the points 3 and 7) writes its block back, and the two blocks written back tile the array: row i lies in
  the block of point 4 (i / 512) + 3. So if what each of those two points leaves in the staging buffer is, index by index,
  the rows 512 (t / 4) … 512 (t / 4) + 511 of one function G of the whole array's indices, the array ends holding G.
-/
import proofs.«104132_j7430293422107_2_alg».proof.Proof.Gen.KernelIdeal.Frame
import proofs.«104132_j7430293422107_2_alg».proof.Proof.BlockReads
import Idealize.ShloMosaic.Lib.Pipeline.Value
import Idealize.ShloMosaic.Lib.ValueIdx
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The output's block at a point -/

/-- The output window hands point t the block (t / 4, 0) of the array. -/
theorem idx_out (t : Fin cfg0.N) : win0_8.index t 0 = t.val / 4 ∧ win0_8.index t 1 = 0 := by
  rcases fin_N0 t with rfl | rfl | rfl | rfl | rfl | rfl | rfl | rfl <;> decide

/-- Entry (r, j) of point t's block of a whole-array function is the function at row 512 (t / 4) + r, column j. -/
theorem blk_out (G : S1024x384.Idx → EReal) (t : Fin cfg0.N) (r : Fin 512) (j : Fin 384) :
    (((cfg0.win 8).blk t).view.read (Elt Ideal) G : Vec Ideal S512x384 .f32) (ix2 r j) = G (ix2 (rowOf t r) j) := by
  have hi := idx_out t
  rw [View.read_apply]
  show G _ = G _
  congr 1
  funext a
  apply Fin.ext
  match a with
  | ⟨0, _⟩ => show win0_8.index t 0 * 512 + 1 * r.val = 512 * (t.val / 4) + r.val; rw [hi.1]; omega
  | ⟨1, _⟩ => show win0_8.index t 1 * 384 + 1 * j.val = j.val; rw [hi.2]; omega

/-- WHAT A WRITING POINT WRITES BACK is its block of G, when its staging buffer holds G's rows index by index. -/
theorem flushed_eq (c : Dev nD) (G : S1024x384.Idx → EReal)
    (hG : ∀ (t : Fin cfg0.N), t.val % 4 = 3 → ∀ (r : Fin 512) (j : Fin 384),
            ((outsAt0 m c t.val t.isLt).1 : Vec Ideal S512x384 .f32) (ix2 r j) = G (ix2 (rowOf t r) j))
    (t : Fin cfg0.N) (hf : (cfg0.win 8).flush t = true) :
    (dats m 0 c).flushed 8 t = ((cfg0.win 8).blk t).view.read (Elt Ideal) G := by
  have h3 : t.val % 4 = 3 := (flush0_8 t).mp hf
  show (cfg0.win 8).cut (grid0.coords t) ((dats m 0 c).after 8 t) = _
  rw [after0_8]
  refine funext fun (y : S512x384.Idx) => ?_
  show ((outsAt0 m c t.val t.isLt).1 : Vec Ideal S512x384 .f32) y
      = (((cfg0.win 8).blk t).view.read (Elt Ideal) G : Vec Ideal S512x384 .f32) y
  obtain ⟨r, j, rfl⟩ : ∃ (r : Fin 512) (j : Fin 384), y = ix2 r j := ⟨y 0, y 1, eq_ix2 y⟩
  exact (hG t h3 r j).trans (blk_out G t r j).symm

/-! ## The two written blocks tile the array -/

/-- An index of the array is in point t's block iff each coordinate is in the block's range on its axis. -/
theorem mem_blk (t : Fin cfg0.N) (i : S1024x384.Idx) :
    i ∈ ((cfg0.win 8).blk t).view.set
      ↔ ∀ a : Fin 2, win0_8.index t a * S512x384.size a ≤ (i a).val
          ∧ (i a).val < win0_8.index t a * S512x384.size a + S512x384.size a := by
  show i ∈ ((View.whole main_v5).slice (win0_8.rect t)).set ↔ _
  rw [View.set_slice_whole, Rect.mem_set_unit]
  exact Iff.rfl

/-- Row i of the array lies in the block of the point 4 (i / 512) + 3, a point that writes its block back. -/
theorem cover (i : S1024x384.Idx) :
    ∃ t : Fin cfg0.N, (cfg0.win 8).flush t = true ∧ i ∈ ((cfg0.win 8).blk t).view.set := by
  have hN : cfg0.N = 8 := N_0
  have hi0 : (i 0).val < 1024 := idx2_lt0 i
  have hi1 : (i 1).val < 384 := idx2_lt1 i
  let t : Fin cfg0.N := ⟨4 * ((i 0).val / 512) + 3, by omega⟩
  have ht : t.val = 4 * ((i 0).val / 512) + 3 := rfl
  have hidx := idx_out t
  refine ⟨t, (flush0_8 t).mpr (by omega), ?_⟩
  rw [mem_blk]
  intro a
  match a with
  | ⟨0, _⟩ =>
    show win0_8.index t 0 * 512 ≤ (i 0).val ∧ (i 0).val < win0_8.index t 0 * 512 + 512
    rw [hidx.1]; omega
  | ⟨1, _⟩ =>
    show win0_8.index t 1 * 384 ≤ (i 1).val ∧ (i 1).val < win0_8.index t 1 * 384 + 384
    rw [hidx.2]; omega

/-! ## The whole array after the run -/

/-- If at every point that writes the output block back the staging buffer holds, index by index, the rows of ONE
    whole-array function G, then after the run the output array is G. -/
theorem out_array (c : Dev nD) (G : S1024x384.Idx → EReal)
    (hG : ∀ (t : Fin cfg0.N), t.val % 4 = 3 → ∀ (r : Fin 512) (j : Fin 384),
            ((outsAt0 m c t.val t.isLt).1 : Vec Ideal S512x384 .f32) (ix2 r j) = G (ix2 (rowOf t r) j)) :
    ((dats m 0 c).arrAt 8 cfg0.N : S1024x384.Idx → EReal) = G :=
  (dats m 0 c).arrAt_eq_of_cover 8 G (fun t hf => flushed_eq m c G hG t hf) cover

end Cert.KernelIdeal.KValue

end
-- ==== Proof.PayloadScore.lean ====
/-
  The kernel's last step read at an index, at the extended reals: the masked, scaled scores of a row, their maximum, and
  the log-softmax the body stores.

  Row r of the scores has 384 columns. Column j < 361 holds (⟨kx r, q r⟩ + ⟨q r, kp j⟩) · c with kx = a0 + bx, q = a1 + bq
  (a bias row added to every row), kp j = pfp j · wkp + bkp, and c the named scale; the 23 columns from 361 on hold −∞.
  The row's maximum is the fold of max from −∞, and what is stored is (s − M) − log ∑ exp (s − M): the log-softmax of the
  row of 384.
-/
import proofs.«104132_j7430293422107_2_alg».proof.Proof.Payload

noncomputable section

open Cert.KernelIdeal Cert.KernelIdeal.Gen Idealize.ShloMosaic Idealize.ShloMosaic.ValueIdx

namespace Cert.Bridge

/-! ### Columns: a vector as a one-column matrix, and a column broadcast along the rows -/

section Layout
variable {α : Type}

/-- An [a, 1] column broadcast over b columns reads, at (p, c), the column's entry at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ### A sum and a maximum along the columns -/

/-- The sum over the columns of an [a, b] array, at row r. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun ax => Fin.ext ?_)
  match ax with
  | ⟨0, _⟩ => rfl
  | ⟨1, _⟩ => rfl

/-- The word 0xFF800000 is −∞. -/
theorem ofBits_neg_inf : Ideal.ofBits .f32 0xFF800000#32 = (⊥ : EReal) := by
  simp [Ideal.ofBits, Ideal.ieee]

/-- The maximum over the columns of an [a, b] array, at row r: the fold of max from −∞. -/
theorem rowMaxRed_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r) = rowMax fun k : Fin b => src (ix2 r k) := by
  refine (Ideal.multiReduction_maximumf_single src 0xFF800000#32 h hφ hacc (ix1 r)).trans ?_
  have hb : FloatOps.ofBits (F := Ideal) .f32 0xFF800000#32 = (⊥ : EReal) := ofBits_neg_inf
  rw [hb]
  show (Finset.univ : Finset (Fin b)).fold max ⊥ (src ∘ h.lift (ix1 r)) = (Finset.univ : Finset (Fin b)).fold max ⊥ fun k : Fin b => src (ix2 r k)
  refine congrArg (fun f => (Finset.univ : Finset (Fin b)).fold max (⊥ : EReal) f) (funext fun k => congrArg src (funext fun ax => Fin.ext ?_))
  match ax with
  | ⟨0, _⟩ => rfl
  | ⟨1, _⟩ => rfl

/-! ### The two matrix products of the score -/

theorem lhs_b_0 (i : S384x2048.Idx) (q : dot_S384x64_S64x2048_S384x2048_1_0_0_1_n_n.contr.Idx) :
    (dot_S384x64_S64x2048_S384x2048_1_0_0_1_n_n.lhsIdx i q 0).val = (i 0).val := by
  unfold DotDims.lhsIdx
  rw [dif_neg (show ¬(0 : Fin S384x64.rank) ∈ dot_S384x64_S64x2048_S384x2048_1_0_0_1_n_n.lhsBatch by decide),
    dif_pos (show (0 : Fin S384x64.rank) ∈ dot_S384x64_S64x2048_S384x2048_1_0_0_1_n_n.lhsNonContracting by decide)]
  rfl
theorem lhs_b_1 (i : S384x2048.Idx) (q : dot_S384x64_S64x2048_S384x2048_1_0_0_1_n_n.contr.Idx) :
    (dot_S384x64_S64x2048_S384x2048_1_0_0_1_n_n.lhsIdx i q 1).val = (q ⟨0, by decide⟩).val :=
  dot_S384x64_S64x2048_S384x2048_1_0_0_1_n_n.lhsIdx_val_of_single rfl i q
theorem rhs_b_0 (i : S384x2048.Idx) (q : dot_S384x64_S64x2048_S384x2048_1_0_0_1_n_n.contr.Idx) :
    (dot_S384x64_S64x2048_S384x2048_1_0_0_1_n_n.rhsIdx i q 0).val = (q ⟨0, by decide⟩).val :=
  dot_S384x64_S64x2048_S384x2048_1_0_0_1_n_n.rhsIdx_val_of_single rfl i q
theorem rhs_b_1 (i : S384x2048.Idx) (q : dot_S384x64_S64x2048_S384x2048_1_0_0_1_n_n.contr.Idx) :
    (dot_S384x64_S64x2048_S384x2048_1_0_0_1_n_n.rhsIdx i q 1).val = (i 1).val := by
  unfold DotDims.rhsIdx
  rw [dif_neg (show ¬(1 : Fin S64x2048.rank) ∈ dot_S384x64_S64x2048_S384x2048_1_0_0_1_n_n.rhsBatch by decide),
    dif_pos (show (1 : Fin S64x2048.rank) ∈ dot_S384x64_S64x2048_S384x2048_1_0_0_1_n_n.rhsNonContracting by decide)]
  rfl

/-- The product of a 384 × 64 block by a 64 × 2048 block, into the zero accumulator, at (p, q): the sum over the contraction
    index k of the entry (p, k) of the left operand times the entry (k, q) of the right one. -/
theorem matmul_b_apply {φ₁ φ₂ : FTy} (lhs : FVec Ideal S384x64 φ₁) (rhs : FVec Ideal S64x2048 φ₂) (p : Fin 384) (q : Fin 2048) :
    FloatOps.matmul dot_S384x64_S64x2048_S384x2048_1_0_0_1_n_n none lhs rhs (constant (F := Ideal) S384x2048 .f32 0x00000000#32) (ix2 p q)
      = ∑ k : Fin 64, lhs (ix2 p k) * rhs (ix2 k q) := by
  refine (Ideal.matmul_constant_zero_apply dot_S384x64_S64x2048_S384x2048_1_0_0_1_n_n none lhs rhs (ix2 p q)).trans ?_
  rw [← Equiv.sum_comp (contrEquiv1 dot_S384x64_S64x2048_S384x2048_1_0_0_1_n_n 64 rfl rfl).symm]
  refine Finset.sum_congr rfl fun k _ => ?_
  have hk := contrEquiv1_symm_val dot_S384x64_S64x2048_S384x2048_1_0_0_1_n_n 64 rfl rfl k
  have el : dot_S384x64_S64x2048_S384x2048_1_0_0_1_n_n.lhsIdx (ix2 p q) ((contrEquiv1 dot_S384x64_S64x2048_S384x2048_1_0_0_1_n_n 64 rfl rfl).symm k) = ix2 p k :=
    funext fun a => Fin.ext (by
      match a with
      | ⟨0, _⟩ => exact lhs_b_0 _ _
      | ⟨1, _⟩ => exact (lhs_b_1 _ _).trans hk)
  have er : dot_S384x64_S64x2048_S384x2048_1_0_0_1_n_n.rhsIdx (ix2 p q) ((contrEquiv1 dot_S384x64_S64x2048_S384x2048_1_0_0_1_n_n 64 rfl rfl).symm k) = ix2 k q :=
    funext fun a => Fin.ext (by
      match a with
      | ⟨0, _⟩ => exact (rhs_b_0 _ _).trans hk
      | ⟨1, _⟩ => exact rhs_b_1 _ _)
  rw [el, er]

theorem lhs_c_0 (i : S512x384.Idx) (q : dot_S512x2048_S384x2048_S512x384_1_1_0_0_n_n.contr.Idx) :
    (dot_S512x2048_S384x2048_S512x384_1_1_0_0_n_n.lhsIdx i q 0).val = (i 0).val := by
  unfold DotDims.lhsIdx
  rw [dif_neg (show ¬(0 : Fin S512x2048.rank) ∈ dot_S512x2048_S384x2048_S512x384_1_1_0_0_n_n.lhsBatch by decide),
    dif_pos (show (0 : Fin S512x2048.rank) ∈ dot_S512x2048_S384x2048_S512x384_1_1_0_0_n_n.lhsNonContracting by decide)]
  rfl
theorem lhs_c_1 (i : S512x384.Idx) (q : dot_S512x2048_S384x2048_S512x384_1_1_0_0_n_n.contr.Idx) :
    (dot_S512x2048_S384x2048_S512x384_1_1_0_0_n_n.lhsIdx i q 1).val = (q ⟨0, by decide⟩).val :=
  dot_S512x2048_S384x2048_S512x384_1_1_0_0_n_n.lhsIdx_val_of_single rfl i q
theorem rhs_c_1 (i : S512x384.Idx) (q : dot_S512x2048_S384x2048_S512x384_1_1_0_0_n_n.contr.Idx) :
    (dot_S512x2048_S384x2048_S512x384_1_1_0_0_n_n.rhsIdx i q 1).val = (q ⟨0, by decide⟩).val :=
  dot_S512x2048_S384x2048_S512x384_1_1_0_0_n_n.rhsIdx_val_of_single rfl i q
theorem rhs_c_0 (i : S512x384.Idx) (q : dot_S512x2048_S384x2048_S512x384_1_1_0_0_n_n.contr.Idx) :
    (dot_S512x2048_S384x2048_S512x384_1_1_0_0_n_n.rhsIdx i q 0).val = (i 1).val := by
  unfold DotDims.rhsIdx
  rw [dif_neg (show ¬(0 : Fin S384x2048.rank) ∈ dot_S512x2048_S384x2048_S512x384_1_1_0_0_n_n.rhsBatch by decide),
    dif_pos (show (0 : Fin S384x2048.rank) ∈ dot_S512x2048_S384x2048_S512x384_1_1_0_0_n_n.rhsNonContracting by decide)]
  rfl

/-- The product of a 512 × 2048 block by the transpose of a 384 × 2048 block, into the zero accumulator, at (p, q): the sum over
    the contraction index k of the entry (p, k) of the left operand times the entry (q, k) of the right one. -/
theorem matmul_c_apply {φ₁ φ₂ : FTy} (lhs : FVec Ideal S512x2048 φ₁) (rhs : FVec Ideal S384x2048 φ₂) (p : Fin 512) (q : Fin 384) :
    FloatOps.matmul dot_S512x2048_S384x2048_S512x384_1_1_0_0_n_n none lhs rhs (constant (F := Ideal) S512x384 .f32 0x00000000#32) (ix2 p q)
      = ∑ k : Fin 2048, lhs (ix2 p k) * rhs (ix2 q k) := by
  refine (Ideal.matmul_constant_zero_apply dot_S512x2048_S384x2048_S512x384_1_1_0_0_n_n none lhs rhs (ix2 p q)).trans ?_
  rw [← Equiv.sum_comp (contrEquiv1 dot_S512x2048_S384x2048_S512x384_1_1_0_0_n_n 2048 rfl rfl).symm]
  refine Finset.sum_congr rfl fun k _ => ?_
  have hk := contrEquiv1_symm_val dot_S512x2048_S384x2048_S512x384_1_1_0_0_n_n 2048 rfl rfl k
  have el : dot_S512x2048_S384x2048_S512x384_1_1_0_0_n_n.lhsIdx (ix2 p q) ((contrEquiv1 dot_S512x2048_S384x2048_S512x384_1_1_0_0_n_n 2048 rfl rfl).symm k) = ix2 p k :=
    funext fun a => Fin.ext (by
      match a with
      | ⟨0, _⟩ => exact lhs_c_0 _ _
      | ⟨1, _⟩ => exact (lhs_c_1 _ _).trans hk)
  have er : dot_S512x2048_S384x2048_S512x384_1_1_0_0_n_n.rhsIdx (ix2 p q) ((contrEquiv1 dot_S512x2048_S384x2048_S512x384_1_1_0_0_n_n 2048 rfl rfl).symm k) = ix2 q k :=
    funext fun a => Fin.ext (by
      match a with
      | ⟨0, _⟩ => exact rhs_c_0 _ _
      | ⟨1, _⟩ => exact (rhs_c_1 _ _).trans hk)
  rw [el, er]

/-! ### The column test -/

/-- Column j of 384 is below 361 as a signed 32-bit word exactly when j < 361. -/
theorem col_lt (r : Fin 512) (j : Fin 384) :
    cmpi .slt (iota .tc S512x384 32 [1] iota_S512x384_d1_w32) (broadcast S512x384 361#32) (ix2 r j) = if j.val < 361 then 1#1 else 0#1 := by
  show IntOp.cmpi .slt (iota .tc S512x384 32 [1] iota_S512x384_d1_w32 (ix2 r j)) 361#32 = _
  rw [iota_single_apply]
  show IntOp.cmpi .slt (BitVec.ofNat 32 j.val) 361#32 = _
  have hj : (BitVec.ofNat 32 j.val).toInt = (j.val : Int) := by
    have hlt := j.isLt
    have hn : (BitVec.ofNat 32 j.val).toNat = j.val := by
      rw [BitVec.toNat_ofNat]; exact Nat.mod_eq_of_lt (by omega)
    rw [BitVec.toInt_eq_toNat_cond, hn]
    split <;> omega
  have h361 : (361#32 : BitVec 32).toInt = 361 := by decide
  split
  · next hlt => exact IntOp.cmpi_slt.mpr (by rw [hj, h361]; omega)
  · next hge =>
    refine eq_zero_of_ne_one fun h1 => hge ?_
    have := IntOp.cmpi_slt.mp h1
    rw [hj, h361] at this
    omega

/-! ### The pieces of a score -/

/-- A bias row added to every row of a 512 × 2048 block, at (r, d). -/
theorem biased_apply (a : FVec Ideal S512x2048 .f32) (b : FVec Ideal S1x2048 .f32) (r : Fin 512) (d : Fin 2048) :
    addf (F := Ideal) a (broadcastTo S512x2048 (shapeCast S1x2048 b shapeCasts_S1x2048_S1x2048) broadcasts_S1x2048_S512x2048) (ix2 r d)
      = a (ix2 r d) + b (ix2 0 d) := by
  refine (addf_apply _ _ _).trans ?_
  rw [broadcastTo_1b_ab_apply, shapeCast_self]

/-- The position keys: the 384 × 64 features times the 64 × 2048 weights plus the bias row, at (j, d). -/
theorem kp_apply (pfp : FVec Ideal S384x64 .f32) (wkp : FVec Ideal S64x2048 .f32) (bkp : FVec Ideal S1x2048 .f32) (j : Fin 384) (d : Fin 2048) :
    addf (F := Ideal) (matmul dot_S384x64_S64x2048_S384x2048_1_0_0_1_n_n none (shapeCast S384x64 pfp shapeCasts_S384x64_S384x64) wkp (constant S384x2048 .f32 0x00000000#32))
        (broadcastTo S384x2048 (shapeCast S1x2048 bkp shapeCasts_S1x2048_S1x2048) broadcasts_S1x2048_S384x2048) (ix2 j d)
      = (∑ e : Fin 64, pfp (ix2 j e) * wkp (ix2 e d)) + bkp (ix2 0 d) := by
  refine (addf_apply _ _ _).trans ?_
  rw [broadcastTo_1b_ab_apply, shapeCast_self, shapeCast_self]
  exact congrArg (· + bkp (ix2 0 d)) (matmul_b_apply (φ₁ := .f32) (φ₂ := .f32) pfp wkp j d)

/-! ### The masked, scaled scores -/

/-- row r of the masked, scaled scores: 361 real columns, then 23 columns at −∞ -/
def scoreRow (a0 : Vec Ideal S512x2048 .f32) (bx : Vec Ideal S1x2048 .f32) (a1 : Vec Ideal S512x2048 .f32) (bq : Vec Ideal S1x2048 .f32)
    (pfp : Vec Ideal S384x64 .f32) (wkp : Vec Ideal S64x2048 .f32) (bkp : Vec Ideal S1x2048 .f32) (r : Fin 512) (j : Fin 384) : EReal :=
  if j.val < 361 then
    ((∑ d : Fin 2048, (a0 (ix2 r d) + bx (ix2 0 d)) * (a1 (ix2 r d) + bq (ix2 0 d)))
      + ∑ d : Fin 2048, (a1 (ix2 r d) + bq (ix2 0 d)) * ((∑ e : Fin 64, pfp (ix2 j e) * wkp (ix2 e d)) + bkp (ix2 0 d)))
     * ((262144 / 11863283 : ℝ) : EReal)
  else ⊥

theorem pay7_apply (a0 : Vec Ideal S512x2048 .f32) (bx : Vec Ideal S1x2048 .f32) (a1 : Vec Ideal S512x2048 .f32) (bq : Vec Ideal S1x2048 .f32)
    (pfp : Vec Ideal S384x64 .f32) (wkp : Vec Ideal S64x2048 .f32) (bkp : Vec Ideal S1x2048 .f32) (r : Fin 512) (j : Fin 384) :
    k0_pay7 a0 bx a1 bq pfp wkp bkp (ix2 r j) = scoreRow a0 bx a1 bq pfp wkp bkp r j := by
  unfold k0_pay7 scoreRow
  refine (select_apply _ _ _ (ix2 r j)).trans ?_
  rw [col_lt]
  by_cases hj : j.val < 361
  · simp only [if_pos hj]
    rw [select_one]
    refine (mulf_apply _ _ (ix2 r j)).trans ?_
    rw [broadcast_apply, inv_sqrt_d]
    refine congrArg (· * ((262144 / 11863283 : ℝ) : EReal)) ?_
    refine (addf_apply _ _ (ix2 r j)).trans ?_
    congr 1
    · rw [broadcastTo_a1_ab_apply, shapeCast_a_a1_apply, rowSum_apply]
      refine Finset.sum_congr rfl fun d _ => ?_
      refine (mulf_apply _ _ (ix2 r d)).trans ?_
      rw [biased_apply, biased_apply]
    · refine (matmul_c_apply _ _ r j).trans ?_
      refine Finset.sum_congr rfl fun d _ => ?_
      rw [truncf_apply, truncf_apply, biased_apply, kp_apply]
  · simp only [if_neg hj]
    rw [select_zero]
    exact neg_fill

/-! ### The row maximum -/

theorem pay8_apply (a0 : Vec Ideal S512x2048 .f32) (bx : Vec Ideal S1x2048 .f32) (a1 : Vec Ideal S512x2048 .f32) (bq : Vec Ideal S1x2048 .f32)
    (pfp : Vec Ideal S384x64 .f32) (wkp : Vec Ideal S64x2048 .f32) (bkp : Vec Ideal S1x2048 .f32) (r : Fin 512) (j : Fin 384) :
    k0_pay8 a0 bx a1 bq pfp wkp bkp (ix2 r j) = rowMax (scoreRow a0 bx a1 bq pfp wkp bkp r) := by
  unfold k0_pay8
  rw [broadcastTo_a1_ab_apply, shapeCast_a_a1_apply]
  refine (maximumf_apply _ _ (ix1 r)).trans ?_
  rw [broadcast_apply, rowMaxRed_apply]
  -- the maximum of −∞ and the row's maximum is the row's maximum
  refine (max_eq_right (le_of_eq_of_le ofBits_neg_inf bot_le)).trans ?_
  exact congrArg rowMax (funext fun k => pay7_apply a0 bx a1 bq pfp wkp bkp r k)

/-! ### The stored log-softmax -/

/-- The exponential and the logarithm of a vector, at an index. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- What the body stores, from the scores s and the broadcast maximum m, at (r, j): (s − m) − log ∑ exp (s − m) along row r. -/
theorem pay6_apply (s m : FVec Ideal S512x384 .f32) (r : Fin 512) (j : Fin 384) :
    k0_pay6 s m (ix2 r j)
      = (s (ix2 r j) - m (ix2 r j)) - Ideal.log (∑ k : Fin 384, Ideal.exp (s (ix2 r k) - m (ix2 r k))) := by
  unfold k0_pay6
  refine (subf_apply _ _ (ix2 r j)).trans ?_
  refine congrArg (s (ix2 r j) - m (ix2 r j) - ·) ?_
  rw [broadcastTo_a1_ab_apply]
  refine (log_apply _ _).trans ?_
  rw [shapeCast_a_a1_apply, rowSum_apply]
  rfl

theorem out_apply (a0 : Vec Ideal S512x2048 .f32) (bx : Vec Ideal S1x2048 .f32) (a1 : Vec Ideal S512x2048 .f32) (bq : Vec Ideal S1x2048 .f32)
    (pfp : Vec Ideal S384x64 .f32) (wkp : Vec Ideal S64x2048 .f32) (bkp : Vec Ideal S1x2048 .f32) (r : Fin 512) (j : Fin 384) :
    k0_pay6 (k0_pay7 a0 bx a1 bq pfp wkp bkp) (k0_pay8 a0 bx a1 bq pfp wkp bkp) (ix2 r j)
      = logSoftmax (scoreRow a0 bx a1 bq pfp wkp bkp r) j := by
  rw [pay6_apply]
  unfold logSoftmax
  simp only [pay7_apply, pay8_apply]

end Cert.Bridge

end
-- ==== Proof.ScoreBridge.lean ====
/-
  A row of the kernel's masked, scaled scores against the specification.

  When the two accumulators hold the whole dot products x_b · W_kx and x_b · W_q at row r, and the resident operands hold
  the bias rows, the 361 feature rows and the position weights, column p < 361 of the kernel's row is
  (⟨kx b, q b⟩ + ⟨q b, kp p⟩) · (2^18 / 11863283), which is the specification's quotient by the divisor D; the 23 columns
  from 361 on hold −∞. A row of 361 entries continued by −∞ has the same log-softmax on its first 361 columns, so the
  log-softmax of the kernel's row at a real column is the specification's result.
-/
import proofs.«104132_j7430293422107_2_alg».proof.Proof.PayloadScore
import proofs.«104132_j7430293422107_2_alg».proof.Proof.Algebra
import proofs.«104132_j7430293422107_2_alg».proof.Proof.Spec

noncomputable section

open Cert.KernelIdeal Idealize.ShloMosaic Idealize.ShloMosaic.ValueIdx

namespace Cert.Bridge

theorem scoreRow_spec
    (X : Fin 1024 → Fin 2048 → EReal) (pf : Fin 361 → Fin 64 → EReal) (Wkp : Fin 64 → Fin 2048 → EReal) (bkpv : Fin 2048 → EReal)
    (Wkx : Fin 2048 → Fin 2048 → EReal) (bkxv : Fin 2048 → EReal) (Wq : Fin 2048 → Fin 2048 → EReal) (bqv : Fin 2048 → EReal)
    (a0 : Vec Ideal S512x2048 .f32) (bx : Vec Ideal S1x2048 .f32) (a1 : Vec Ideal S512x2048 .f32) (bq : Vec Ideal S1x2048 .f32)
    (pfp : Vec Ideal S384x64 .f32) (wkp : Vec Ideal S64x2048 .f32) (bkp : Vec Ideal S1x2048 .f32) (b : Fin 1024) (r : Fin 512)
    (ha0 : ∀ d : Fin 2048, a0 (ix2 r d) = ∑ k : Fin 2048, X b k * Wkx k d)
    (ha1 : ∀ d : Fin 2048, a1 (ix2 r d) = ∑ k : Fin 2048, X b k * Wq k d)
    (hbx : ∀ d : Fin 2048, bx (ix2 (0 : Fin 1) d) = bkxv d) (hbq : ∀ d : Fin 2048, bq (ix2 (0 : Fin 1) d) = bqv d)
    (hpf : ∀ (p : Fin 361) (e : Fin 64), pfp (ix2 (⟨p.val, by have := p.isLt; omega⟩ : Fin 384) e) = pf p e)
    (hwkp : ∀ (e : Fin 64) (d : Fin 2048), wkp (ix2 e d) = Wkp e d) (hbkp : ∀ d : Fin 2048, bkp (ix2 (0 : Fin 1) d) = bkpv d)
    (p : Fin 361) :
    logSoftmax (scoreRow a0 bx a1 bq pfp wkp bkp r) ⟨p.val, by have := p.isLt; omega⟩ = result X pf Wkp bkpv Wkx bkxv Wq bqv b p := by
  unfold result
  refine logSoftmax_pad (fun p' => Ideal.div (score (lin X Wkx bkxv) (lin X Wq bqv) (lin pf Wkp bkpv) b p') divisor)
    (scoreRow a0 bx a1 bq pfp wkp bkp r) (fun j => ?_) (fun j hj => ?_) p
  · -- a real column: the product with the reciprocal is the quotient by the divisor
    unfold scoreRow
    split
    · rw [mul_inv_eq_div]
      refine congrArg (Ideal.div · divisor) ?_
      unfold score lin
      congr 1
      · refine Finset.sum_congr rfl fun d _ => ?_
        rw [ha0, ha1, hbx, hbq]
      · refine Finset.sum_congr rfl fun d _ => ?_
        rw [ha1, hbq, hbkp]
        refine congrArg (fun t => (∑ k : Fin 2048, X b k * Wq k d + bqv d) * (t + bkpv d)) ?_
        refine Finset.sum_congr rfl fun e _ => ?_
        rw [hpf, hwkp]
    · next hge => exact absurd j.isLt hge
  · -- a padded column
    unfold scoreRow
    rw [if_neg (by omega)]

theorem scoreRow_resultOf
    (x : (⟨2, ![1024, 2048]⟩ : Shape).Idx → EReal) (p3 : (⟨3, ![19, 19, 64]⟩ : Shape).Idx → EReal)
    (Wkp : (⟨2, ![64, 2048]⟩ : Shape).Idx → EReal) (bkpv : (⟨1, ![2048]⟩ : Shape).Idx → EReal)
    (Wkx : (⟨2, ![2048, 2048]⟩ : Shape).Idx → EReal) (bkxv : (⟨1, ![2048]⟩ : Shape).Idx → EReal)
    (Wq : (⟨2, ![2048, 2048]⟩ : Shape).Idx → EReal) (bqv : (⟨1, ![2048]⟩ : Shape).Idx → EReal)
    (a0 : Vec Ideal S512x2048 .f32) (bx : Vec Ideal S1x2048 .f32) (a1 : Vec Ideal S512x2048 .f32) (bq : Vec Ideal S1x2048 .f32)
    (pfp : Vec Ideal S384x64 .f32) (wkp : Vec Ideal S64x2048 .f32) (bkp : Vec Ideal S1x2048 .f32) (b : Fin 1024) (r : Fin 512)
    (ha0 : ∀ d : Fin 2048, a0 (ix2 r d) = ∑ k : Fin 2048, x (ix2 b k) * Wkx (ix2 k d))
    (ha1 : ∀ d : Fin 2048, a1 (ix2 r d) = ∑ k : Fin 2048, x (ix2 b k) * Wq (ix2 k d))
    (hbx : ∀ d : Fin 2048, bx (ix2 (0 : Fin 1) d) = bkxv (ix1 d)) (hbq : ∀ d : Fin 2048, bq (ix2 (0 : Fin 1) d) = bqv (ix1 d))
    (hpf : ∀ (p : Fin 361) (e : Fin 64), pfp (ix2 (⟨p.val, by have := p.isLt; omega⟩ : Fin 384) e)
      = p3 (ix3 (⟨p.val / 19, by have := p.isLt; omega⟩ : Fin 19) (⟨p.val % 19, by omega⟩ : Fin 19) e))
    (hwkp : ∀ (e : Fin 64) (d : Fin 2048), wkp (ix2 e d) = Wkp (ix2 e d))
    (hbkp : ∀ d : Fin 2048, bkp (ix2 (0 : Fin 1) d) = bkpv (ix1 d)) (p : Fin 361) :
    logSoftmax (scoreRow a0 bx a1 bq pfp wkp bkp r) ⟨p.val, by have := p.isLt; omega⟩ = resultOf x p3 Wkp bkpv Wkx bkxv Wq bqv b p := by
  unfold resultOf
  exact scoreRow_spec (fun b k => x (ix2 b k))
    (fun p e => p3 (ix3 (⟨p.val / 19, by have := p.isLt; omega⟩ : Fin 19) (⟨p.val % 19, by omega⟩ : Fin 19) e))
    (fun e d => Wkp (ix2 e d)) (fun d => bkpv (ix1 d)) (fun k d => Wkx (ix2 k d)) (fun d => bkxv (ix1 d))
    (fun k d => Wq (ix2 k d)) (fun d => bqv (ix1 d)) a0 bx a1 bq pfp wkp bkp b r ha0 ha1 hbx hbq hpf hwkp hbkp p

end Cert.Bridge

end
-- ==== Proof.HostSide.lean ====
/-
  The host side of the idealized kernel program, read at an index.

  Before the region the host flattens the 19 × 19 × 64 positions array to 361 × 64 and pads it with 23 zero rows to
  384 × 64, and views each of the three 2048-entry bias vectors as a 1 × 2048 row. After the region it keeps the first
  361 of the 384 columns of the region's 1024 × 384 output array and views each row of 361 entries as a 19 × 19 board.
-/
import proofs.«104132_j7430293422107_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.KernelVsHost
import Idealize.ShloMosaic.Lib.Tactic

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The bias rows -/

/-- A 2048-entry vector viewed as a 1 × 2048 row has the vector's entry `d` at (0, d). -/
theorem row_of_vec (x : S2048.Idx → EReal) (d : Fin 2048) :
    shapeCast S1x2048 x shapeCasts_S2048_S1x2048 (ix2 (0 : Fin 1) d) = x (ix1 d) := by
  refine shapeCast_apply x shapeCasts_S2048_S1x2048 (ix2 (0 : Fin 1) d) (ix1 d) ?_
  rw [Shape.rowMajor_val_one, Shape.rowMajor_val_two]
  show d.val = 0 * 2048 + d.val
  omega

/-- The first bias row, as the region finds it, is the first bias vector. -/
theorem bias_kp (c : Dev nD) (d : Fin 2048) :
    V m c main_v2 (ix2 (0 : Fin 1) d) = m ((c : Thread nD τ).loc main_arg3) (ix1 d) := by
  have e : (V m c main_v2 : S1x2048.Idx → EReal)
      = shapeCast S1x2048 (m ((c : Thread nD τ).loc main_arg3) : S2048.Idx → EReal) shapeCasts_S2048_S1x2048 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact row_of_vec _ d

/-- The second bias row, as the region finds it, is the second bias vector. -/
theorem bias_kx (c : Dev nD) (d : Fin 2048) :
    V m c main_v3 (ix2 (0 : Fin 1) d) = m ((c : Thread nD τ).loc main_arg5) (ix1 d) := by
  have e : (V m c main_v3 : S1x2048.Idx → EReal)
      = shapeCast S1x2048 (m ((c : Thread nD τ).loc main_arg5) : S2048.Idx → EReal) shapeCasts_S2048_S1x2048 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact row_of_vec _ d

/-- The third bias row, as the region finds it, is the third bias vector. -/
theorem bias_q (c : Dev nD) (d : Fin 2048) :
    V m c main_v4 (ix2 (0 : Fin 1) d) = m ((c : Thread nD τ).loc main_arg7) (ix1 d) := by
  have e : (V m c main_v4 : S1x2048.Idx → EReal)
      = shapeCast S1x2048 (m ((c : Thread nD τ).loc main_arg7) : S2048.Idx → EReal) shapeCasts_S2048_S1x2048 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact row_of_vec _ d

/-! ## The padded positions array -/

/-- The board flattened: row `p` of the 361 × 64 array is board cell (p / 19, p % 19). -/
theorem flat_row (x : S19x19x64.Idx → EReal) (p : Fin 361) (e : Fin 64) :
    shapeCast S361x64 x shapeCasts_S19x19x64_S361x64 (ix2 p e)
      = x (ix3 (⟨p.val / 19, by have := p.isLt; omega⟩ : Fin 19) (⟨p.val % 19, by omega⟩ : Fin 19) e) := by
  refine shapeCast_apply x shapeCasts_S19x19x64_S361x64 (ix2 p e) _ ?_
  rw [Shape.rowMajor_val_three, Shape.rowMajor_val_two]
  show (p.val / 19 * 19 + p.val % 19) * 64 + e.val = p.val * 64 + e.val
  have := p.isLt
  omega

/-- Rows 0 … 360 of an array padded below with 23 rows are the array's own rows. -/
theorem pad_row (x : S361x64.Idx → EReal) (v : S_.Idx → EReal) (p : Fin 361) (e : Fin 64) :
    pad S384x64 ![0, 0] ![23, 0] ![0, 0] x v pads_S361x64_S384x64_0230_000 h_S_
        (ix2 (⟨p.val, by have := p.isLt; omega⟩ : Fin 384) e)
      = x (ix2 p e) := by
  refine pad_apply_of_inside ![0, 0] ![23, 0] ![0, 0] x v pads_S361x64_S384x64_0230_000 h_S_ _ (ix2 p e) ?_
  intro a
  match a with
  | ⟨0, _⟩ => show p.val = 0 + p.val * (0 + 1); omega
  | ⟨1, _⟩ => show e.val = 0 + e.val * (0 + 1); omega

/-- Rows 0 … 360 of the padded positions array are the rows of the flattened board: row `p` is board cell
    (p / 19, p % 19). -/
theorem pf_row (c : Dev nD) (p : Fin 361) (e : Fin 64) :
    V m c main_v1 (ix2 (⟨p.val, by have := p.isLt; omega⟩ : Fin 384) e)
      = m ((c : Thread nD τ).loc main_arg1)
          (ix3 (⟨p.val / 19, by have := p.isLt; omega⟩ : Fin 19) (⟨p.val % 19, by omega⟩ : Fin 19) e) := by
  have h : (V m c main_v1 : S384x64.Idx → EReal)
      = pad S384x64 ![0, 0] ![23, 0] ![0, 0]
          (shapeCast S361x64 (m ((c : Thread nD τ).loc main_arg1) : S19x19x64.Idx → EReal) shapeCasts_S19x19x64_S361x64)
          (sitofp (F := Ideal) .f32 (constantI S_ 32 0#32)) pads_S361x64_S384x64_0230_000 h_S_ := by
    dsimp only [Gen.V, Gen.V0]
    simp only [Gen.hostOps0, Gen.hostOps0_1, Gen.hostOps0_2, List.flatten_cons, List.flatten_nil, List.append_nil,
      List.cons_append, List.nil_append]
    after_results
    rfl
  rw [h]
  exact (pad_row _ _ p e).trans (flat_row _ p e)

/-! ## The result after the region -/

/-- The first 361 columns of a 1024 × 384 array, read at (b, p). -/
theorem cols_apply (x : S1024x384.Idx → EReal) (b : Fin 1024) (p : Fin 361) :
    extractStridedSlice S1024x361 ![0, 0] x slices_S1024x384_S1024x361_0_0 (ix2 b p)
      = x (ix2 b (⟨p.val, by have := p.isLt; omega⟩ : Fin 384)) := by
  refine extractStridedSlice_apply ![0, 0] x slices_S1024x384_S1024x361_0_0 (ix2 b p) _ ?_
  intro a
  match a with
  | ⟨0, _⟩ => show b.val = 0 + b.val; omega
  | ⟨1, _⟩ => show p.val = 0 + p.val; omega

/-- The same at any index of the 1024 × 361 array, as an equation of arrays. -/
theorem cols_eq (x : S1024x384.Idx → EReal) :
    extractStridedSlice S1024x361 ![0, 0] x slices_S1024x384_S1024x361_0_0
      = fun i : S1024x361.Idx =>
          x (ix2 (i 0) (⟨(i 1).val, by have := idx2_lt1 i; omega⟩ : Fin 384)) := by
  funext i
  refine extractStridedSlice_apply ![0, 0] x slices_S1024x384_S1024x361_0_0 i _ ?_
  intro a
  match a with
  | ⟨0, _⟩ => show (i 0).val = 0 + (i 0).val; omega
  | ⟨1, _⟩ => show (i 1).val = 0 + (i 1).val; omega

/-- A 1024 × 361 array viewed as 1024 boards of 19 × 19: board `b`'s cell (r, s) is entry (b, 19 r + s). -/
theorem board_apply (x : S1024x361.Idx → EReal) (b : Fin 1024) (r s : Fin 19) :
    shapeCast S1024x19x19 x shapeCasts_S1024x361_S1024x19x19 (ix3 b r s)
      = x (ix2 b (⟨r.val * 19 + s.val, by have := r.isLt; have := s.isLt; omega⟩ : Fin 361)) := by
  refine shapeCast_apply x shapeCasts_S1024x361_S1024x19x19 (ix3 b r s) _ ?_
  rw [Shape.rowMajor_val_two, Shape.rowMajor_val_three]
  show b.val * 361 + (r.val * 19 + s.val) = (b.val * 19 + r.val) * 19 + s.val
  omega

/-- The program's result is the board view of the first 361 columns of the region's output array (the array of
    window 8), the slice kept as an operation. -/
theorem tail_arr (c : Dev nD) :
    Pipeline.afterTail₀ cfgs (dats m) 0 (V0 m) [hostOps1] c main_v7
      = shapeCast S1024x19x19
          (extractStridedSlice S1024x361 ![0, 0] ((dats m 0 c).arrAt 8 cfg0.N : S1024x384.Idx → EReal)
            slices_S1024x384_S1024x361_0_0)
          shapeCasts_S1024x361_S1024x19x19 := by
  unfold Pipeline.afterTail₀
  show StableHlo.after hostOps1 _ (Proc.devRef .tc main_v7) = _
  after_results
  have hw : Pipeline.withArrays (cfgs 0).spec c (V0 m c) (fun w => (dats m 0 c).arrAt w (cfgs 0).N)
        (Proc.devRef .tc main_v5)
      = (dats m 0 c).arrAt 8 cfg0.N :=
    Pipeline.withArrays_arr spec0 launch0.win.arr_inj c _ _ 8
  exact congrArg (fun x : S1024x384.Idx → EReal =>
    shapeCast S1024x19x19 (extractStridedSlice S1024x361 ![0, 0] x slices_S1024x384_S1024x361_0_0)
      shapeCasts_S1024x361_S1024x19x19) hw

/-- The program's result is the reshape of the first 361 columns of the region's output array. -/
theorem tail_eq (c : Dev nD) :
    Pipeline.afterTail₀ cfgs (dats m) 0 (V0 m) [hostOps1] c main_v7
      = shapeCast S1024x19x19
          (fun i : S1024x361.Idx =>
            ((dats m 0 c).arrAt 8 cfg0.N : S1024x384.Idx → EReal)
              (ix2 (i 0) (⟨(i 1).val, by have := idx2_lt1 i; omega⟩ : Fin 384)))
          shapeCasts_S1024x361_S1024x19x19 :=
  (tail_arr m c).trans
    (congrArg (fun x : S1024x361.Idx → EReal => shapeCast S1024x19x19 x shapeCasts_S1024x361_S1024x19x19)
      (cols_eq _))

/-- The program's result at board `b`, cell (r, s), is the region's output array at (b, 19 r + s). -/
theorem tail_apply (c : Dev nD) (b : Fin 1024) (r s : Fin 19) :
    Pipeline.afterTail₀ cfgs (dats m) 0 (V0 m) [hostOps1] c main_v7 (ix3 b r s)
      = ((dats m 0 c).arrAt 8 cfg0.N : S1024x384.Idx → EReal)
          (ix2 b (⟨r.val * 19 + s.val, by have := r.isLt; have := s.isLt; omega⟩ : Fin 384)) := by
  rw [tail_arr]
  exact (board_apply _ b r s).trans (cols_apply _ b _)

end Cert.KernelIdeal.HostSide

end
-- ==== Proof.KernelValue.lean ====
/-
  The idealized kernel's result, as a function of its arguments.

  Row b of the output array is written back once, at the last reduction step of its row tile; what is written there is
  the log-softmax of the row of masked, scaled scores computed from the two finished accumulators (the whole products
  x·W_kx and x·W_q of row b), the biases, and the position keys. At a real column p < 361 that value is the specification's
  result at (b, p). The program then keeps the first 361 columns and reshapes each row to the 19 × 19 board.
-/
import proofs.«104132_j7430293422107_2_alg».proof.Proof.Accum
import proofs.«104132_j7430293422107_2_alg».proof.Proof.AccumValue
import proofs.«104132_j7430293422107_2_alg».proof.Proof.Blocks
import proofs.«104132_j7430293422107_2_alg».proof.Proof.ScoreBridge
import proofs.«104132_j7430293422107_2_alg».proof.Proof.HostSide

set_option maxRecDepth 16384
set_option maxHeartbeats 1000000

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Bridge

variable (m : (ℓ : Loc nD τ sig) → Buf (Elt Ideal) ℓ) (ρ : Dev nD → PrngReg)

/-! ### The eight arguments, as arrays of extended reals -/

abbrev aX (c : Dev nD) : (⟨2, ![1024, 2048]⟩ : Shape).Idx → EReal := m ((c : Thread nD τ).loc main_arg0)
abbrev aP (c : Dev nD) : (⟨3, ![19, 19, 64]⟩ : Shape).Idx → EReal := m ((c : Thread nD τ).loc main_arg1)
abbrev aWkp (c : Dev nD) : (⟨2, ![64, 2048]⟩ : Shape).Idx → EReal := m ((c : Thread nD τ).loc main_arg2)
abbrev aBkp (c : Dev nD) : (⟨1, ![2048]⟩ : Shape).Idx → EReal := m ((c : Thread nD τ).loc main_arg3)
abbrev aWkx (c : Dev nD) : (⟨2, ![2048, 2048]⟩ : Shape).Idx → EReal := m ((c : Thread nD τ).loc main_arg4)
abbrev aBkx (c : Dev nD) : (⟨1, ![2048]⟩ : Shape).Idx → EReal := m ((c : Thread nD τ).loc main_arg5)
abbrev aWq (c : Dev nD) : (⟨2, ![2048, 2048]⟩ : Shape).Idx → EReal := m ((c : Thread nD τ).loc main_arg6)
abbrev aBq (c : Dev nD) : (⟨1, ![2048]⟩ : Shape).Idx → EReal := m ((c : Thread nD τ).loc main_arg7)

/-! ### Which point writes a row back -/

/-- The point that writes row b back: the last reduction step of row tile b / 512. -/
def lastOf (b : Fin 1024) : Fin cfg0.N :=
  ⟨4 * (b.val / 512) + 3, by have := b.isLt; have hN : cfg0.N = 8 := N_0; omega⟩

/-- Row b's position inside its row tile. -/
def inTile (b : Fin 1024) : Fin 512 := ⟨b.val % 512, Nat.mod_lt _ (by decide)⟩

theorem lastOf_mod (b : Fin 1024) : (lastOf b).val % 4 = 3 := by
  show (4 * (b.val / 512) + 3) % 4 = 3
  omega

theorem rowOf_last (b : Fin 1024) : rowOf (lastOf b) (inTile b) = b :=
  Fin.ext (by show 512 * ((4 * (b.val / 512) + 3) / 4) + b.val % 512 = b.val; omega)

theorem lastOf_rowOf (t : Fin cfg0.N) (h3 : t.val % 4 = 3) (r : Fin 512) : lastOf (rowOf t r) = t :=
  Fin.ext (by show 4 * ((512 * (t.val / 4) + r.val) / 512) + 3 = t.val; have := r.isLt; omega)

theorem inTile_rowOf (t : Fin cfg0.N) (r : Fin 512) : inTile (rowOf t r) = r :=
  Fin.ext (by show (512 * (t.val / 4) + r.val) % 512 = r.val; have := r.isLt; omega)

/-! ### The output array -/

/-- The output array: row b is what the staging buffer holds, at b's place in its tile, at the point that writes b back. -/
def outArr (c : Dev nD) : S1024x384.Idx → EReal := fun i =>
  ((outsAt0 m c (lastOf (i 0)).val (lastOf (i 0)).isLt).1 : Vec Ideal S512x384 .f32) (ix2 (inTile (i 0)) (i 1))

theorem outArr_block (c : Dev nD) (t : Fin cfg0.N) (h3 : t.val % 4 = 3) (r : Fin 512) (j : Fin 384) :
    ((outsAt0 m c t.val t.isLt).1 : Vec Ideal S512x384 .f32) (ix2 r j) = outArr m c (ix2 (rowOf t r) j) := by
  have key : ∀ (t' : Fin cfg0.N) (r' : Fin 512), t' = t → r' = r →
      ((outsAt0 m c t'.val t'.isLt).1 : Vec Ideal S512x384 .f32) (ix2 r' j)
        = ((outsAt0 m c t.val t.isLt).1 : Vec Ideal S512x384 .f32) (ix2 r j) := by
    rintro _ _ rfl rfl; rfl
  exact (key (lastOf (rowOf t r)) (inTile (rowOf t r)) (lastOf_rowOf t h3 r) (inTile_rowOf t r)).symm

/-- After the run the output array is that function. -/
theorem arr_eq (c : Dev nD) : ((dats m 0 c).arrAt 8 cfg0.N : S1024x384.Idx → EReal) = outArr m c :=
  out_array m c (outArr m c) (fun t h3 r j => outArr_block m c t h3 r j)

/-- At a real column the output array holds the specification's result. -/
theorem value_at (c : Dev nD) (b : Fin 1024) (p : Fin 361) :
    outArr m c (ix2 b (⟨p.val, by have := p.isLt; omega⟩ : Fin 384)) = resultOf (aX m c) (aP m c) (aWkp m c) (aBkp m c) (aWkx m c) (aBkx m c) (aWq m c) (aBq m c) b p := by
  have h3 := lastOf_mod b
  have hb : rowOf ⟨(lastOf b).val, (lastOf b).isLt⟩ (inTile b) = b := rowOf_last b
  have hx : xArr m c = aX m c := V_main_arg0 m c
  have hwkx : wkxArr m c = aWkx m c := V_main_arg4 m c
  have hwq : wqArr m c = aWq m c := V_main_arg6 m c
  have ha0 : ∀ d : Fin 2048, ((accs m c (lastOf b).val (lastOf b).isLt).1 : Vec Ideal S512x2048 .f32) (ix2 (inTile b) d) = ∑ k : Fin 2048, aX m c (ix2 b k) * aWkx m c (ix2 k d) := fun d => by
    have e := acc_kx m c (lastOf b).val (lastOf b).isLt h3 (inTile b) d
    rw [hx, hwkx, hb] at e
    exact e
  have ha1 : ∀ d : Fin 2048, ((accs m c (lastOf b).val (lastOf b).isLt).2 : Vec Ideal S512x2048 .f32) (ix2 (inTile b) d) = ∑ k : Fin 2048, aX m c (ix2 b k) * aWq m c (ix2 k d) := fun d => by
    have e := acc_q m c (lastOf b).val (lastOf b).isLt h3 (inTile b) d
    rw [hx, hwq, hb] at e
    exact e
  have hbx : ∀ d : Fin 2048, (iblk m c 2 (lastOf b) : Vec Ideal S1x2048 .f32) (ix2 (0 : Fin 1) d) = aBkx m c (ix1 d) := fun d =>
    (blk_bkx m c (lastOf b) d).trans (Cert.KernelIdeal.HostSide.bias_kx m c d)
  have hbq : ∀ d : Fin 2048, (iblk m c 4 (lastOf b) : Vec Ideal S1x2048 .f32) (ix2 (0 : Fin 1) d) = aBq m c (ix1 d) := fun d =>
    (blk_bq m c (lastOf b) d).trans (Cert.KernelIdeal.HostSide.bias_q m c d)
  have hbkp : ∀ d : Fin 2048, (iblk m c 7 (lastOf b) : Vec Ideal S1x2048 .f32) (ix2 (0 : Fin 1) d) = aBkp m c (ix1 d) := fun d =>
    (blk_bkp m c (lastOf b) d).trans (Cert.KernelIdeal.HostSide.bias_kp m c d)
  have hpf : ∀ (p : Fin 361) (e : Fin 64), (iblk m c 5 (lastOf b) : Vec Ideal S384x64 .f32) (ix2 (⟨p.val, by have := p.isLt; omega⟩ : Fin 384) e)
      = aP m c (ix3 (⟨p.val / 19, by have := p.isLt; omega⟩ : Fin 19) (⟨p.val % 19, by omega⟩ : Fin 19) e) := fun p e =>
    (blk_pf m c (lastOf b) _ e).trans (Cert.KernelIdeal.HostSide.pf_row m c p e)
  have hwkp : ∀ (e : Fin 64) (d : Fin 2048), (iblk m c 6 (lastOf b) : Vec Ideal S64x2048 .f32) (ix2 e d) = aWkp m c (ix2 e d) := fun e d =>
    (blk_wkp m c (lastOf b) e d).trans (congrFun (V_main_arg2 m c) _)
  have e1 := out_at (F := Ideal) m c (lastOf b) h3
  show ((outsAt0 m c (lastOf b).val (lastOf b).isLt).1 : Vec Ideal S512x384 .f32) (ix2 (inTile b) (⟨p.val, _⟩ : Fin 384)) = _
  refine (congrFun e1 _).trans ?_
  refine (out_apply ((accs m c (lastOf b).val (lastOf b).isLt).1 : Vec Ideal S512x2048 .f32) (iblk m c 2 (lastOf b)) ((accs m c (lastOf b).val (lastOf b).isLt).2 : Vec Ideal S512x2048 .f32) (iblk m c 4 (lastOf b)) (iblk m c 5 (lastOf b)) (iblk m c 6 (lastOf b)) (iblk m c 7 (lastOf b)) (inTile b) (⟨p.val, by have := p.isLt; omega⟩ : Fin 384)).trans ?_
  exact scoreRow_resultOf (aX m c) (aP m c) (aWkp m c) (aBkp m c) (aWkx m c) (aBkx m c) (aWq m c) (aBq m c) ((accs m c (lastOf b).val (lastOf b).isLt).1 : Vec Ideal S512x2048 .f32) (iblk m c 2 (lastOf b)) ((accs m c (lastOf b).val (lastOf b).isLt).2 : Vec Ideal S512x2048 .f32) (iblk m c 4 (lastOf b)) (iblk m c 5 (lastOf b)) (iblk m c 6 (lastOf b)) (iblk m c 7 (lastOf b)) b (inTile b) ha0 ha1 hbx hbq hpf hwkp hbkp p

/-! ### The run -/

/-- The program's result as a function of its arguments: the specification's [1024, 361] array reshaped to [1024, 19, 19]. -/
def resultArr (c : Dev nD) : Buf (Elt Ideal) ((c.tc : Thread nD τ).loc main_v7) :=
  shapeCast S1024x19x19 (fun i : S1024x361.Idx => resultOf (aX m c) (aP m c) (aWkp m c) (aBkp m c) (aWkx m c) (aBkx m c) (aWq m c) (aBq m c) (i 0) (i 1)) shapeCasts_S1024x361_S1024x19x19

/-- Every weakly fair execution of the idealized kernel program terminates with its result at that array and its
    arguments unchanged. -/
theorem run : θ_run defs (onTc (τ := τ) (main (F := Ideal))) ⟨m, fun _ => 0, ρ⟩ (fun r => ∀ c : Dev nD,
      r.2.mem ((c.tc : Thread nD τ).loc main_v7) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h c).2 main_v7 (Pipeline.mem_restRefs_of main_v7 (by decide) (by decide))).trans
        ((Cert.KernelIdeal.HostSide.tail_eq m c).trans
          (congrArg (fun f : S1024x361.Idx → EReal => shapeCast S1024x19x19 f shapeCasts_S1024x361_S1024x19x19)
            (funext fun i => (congrFun (arr_eq m c) _).trans (value_at m c (i 0) (i 1))))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 6).trans (((dats m 0 c).arrAt_in 6 rfl _).trans ((A_eq m c 6).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c))),
      ((h c).2 main_arg7 (Pipeline.mem_restRefs_of main_arg7 (by decide) (by decide))).trans (W_main_arg7 m (dats m) c)⟩)
    (run_main m ρ)

end Cert.KernelIdeal.KValue

end
-- ==== Proof.Claims.lean ====
/-
  The five parts of the claim.

  Frames: the two kernel programs' frames are the generated ones; the reference's is its run with the result dropped.
  Preserves: the idealized kernel names two constants, the scale 2^18 / 11863283 and the fill −∞; each conjunct is the
  naming rule's statement for one of them.
  Algebraic: from memories that agree on the eight arguments, the idealized kernel ends with its result at the
  specification's [1024, 361] array reshaped to the 19 × 19 board, and the reference's run ends at the reshape of its
  log-softmax stage, which is the same array index by index; so the two results are equal extended reals. The laws that join
  the two sides (regrouping finite sums, −∞ under max, exp and sum, a product with 1/D against a quotient by D) hold on all
  extended reals, so the finiteness of the inputs is not used.
-/
import proofs.«104132_j7430293422107_2_alg».proof.Defs
import proofs.«104132_j7430293422107_2_alg».proof.Proof.Gen.Kernel.Frame
import proofs.«104132_j7430293422107_2_alg».proof.Proof.Gen.KernelIdeal.Frame
import proofs.«104132_j7430293422107_2_alg».proof.Proof.RefRunP
import proofs.«104132_j7430293422107_2_alg».proof.Proof.RefReadP
import proofs.«104132_j7430293422107_2_alg».proof.Proof.RefValue
import proofs.«104132_j7430293422107_2_alg».proof.Proof.KernelValue
import proofs.«104132_j7430293422107_2_alg».proof.Proof.Consts
import proofs.«104132_j7430293422107_2_alg».proof.Proof.Gen.Pre_finite_inputs

set_option maxRecDepth 16384
set_option maxHeartbeats 1000000

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two named constants: the scale is the rational 2^18 / 11863283 and the fill is −∞, each by the certificate's table. -/
theorem preserves : Cert.preserves_Kernel_KernelIdeal :=
  ⟨IdealRules.named_const.statement Cert.KernelIdeal.κ "inv_sqrt_d" .f32 0x3CB504F3#32 ((262144 / 11863283 : ℝ) : EReal) rfl,
   IdealRules.named_const.statement Cert.KernelIdeal.κ "neg_fill" .f32 0xFF333332#32 ⊥ rfl⟩

/-- Both programs end with the specification's array, reshaped to the board, of arguments that agree. -/
theorem algebraic : Cert.algebraic_KernelIdeal_ReferenceIdeal := by
  intro m ρ m' ρ' _ hagree
  refine ⟨fun c => Cert.KernelIdeal.KValue.resultArr m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  have e := Cert.ReferenceIdeal.RefValue.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
  refine ((Cert.ReferenceIdeal.ReadP.val_main_v23_eq m' c).trans e).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  rfl

end Cert.Proof.Claims

end
-- ==== Proof.lean ====
/-
  The claim: the Pallas kernel and its jnp reference compute the same function on the extended reals.

  The kernel scores each of 1024 batch rows against the 361 cells of a 19 × 19 board and returns the log-softmax of the
  scores: score b p = ⟨kx b, q b⟩ + ⟨q b, kp p⟩ with kx = x·W_kx + b_kx, q = x·W_q + b_q, kp = pf·W_kp + b_kp, scaled by
  1/√2048. It differs from the reference in three ways, none of which changes an extended real: the two large products are
  accumulated over four blocks of the reduction axis; the rows are padded from 361 to 384 columns filled with −∞, which the
  maximum ignores and the exponential sends to zero, and the padding is cut away afterwards; and the scale is a product with
  the reciprocal of the reference's divisor.
  The parts are proved in Proof/Claims.lean; here they are assembled behind the programs' stated facts.
-/
import proofs.«104132_j7430293422107_2_alg».proof.Defs
import proofs.«104132_j7430293422107_2_alg».proof.Proof.Gen.Kernel
import proofs.«104132_j7430293422107_2_alg».proof.Proof.Gen.Kernel.Skeleton
import proofs.«104132_j7430293422107_2_alg».proof.Proof.Gen.Kernel.Launch
import proofs.«104132_j7430293422107_2_alg».proof.Proof.Gen.Kernel.Points
import proofs.«104132_j7430293422107_2_alg».proof.Proof.Gen.Kernel.Frame
import proofs.«104132_j7430293422107_2_alg».proof.Proof.Gen.KernelIdeal
import proofs.«104132_j7430293422107_2_alg».proof.Proof.Gen.KernelIdeal.Skeleton
import proofs.«104132_j7430293422107_2_alg».proof.Proof.Gen.KernelIdeal.Launch
import proofs.«104132_j7430293422107_2_alg».proof.Proof.Gen.KernelIdeal.Points
import proofs.«104132_j7430293422107_2_alg».proof.Proof.Gen.KernelIdeal.Frame
import proofs.«104132_j7430293422107_2_alg».proof.Proof.Gen.ReferenceIdeal
import proofs.«104132_j7430293422107_2_alg».proof.Proof.Gen.Pre_finite_inputs
import proofs.«104132_j7430293422107_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
